-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256 : Shape := ⟨1, ![256]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S256x512 .f32) (main_arg1 : IVec S256 32) (main_arg2 : FVec F S1024x512 .f32) (main_arg3 : FVec F S512 .f32) (main_arg4 : FVec F S512x1 .f32) (main_arg5 : FVec F S1 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S1024x512 .f32 := Host.absf main_arg2
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1 .f32 := Host.absf main_arg4
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg5 main_v13 main_v16
-- ==== Kernel.lean ====
abbrev S256x512 : Shape := ⟨2, ![256, 512]⟩
abbrev S256 : Shape := ⟨1, ![256]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S512x512 : Shape := ⟨2, ![512, 512]⟩
abbrev S1x512 : Shape := ⟨2, ![1, 512]⟩
abbrev S1x1 : Shape := ⟨2, ![1, 1]⟩
abbrev S256x1 : Shape := ⟨2, ![256, 1]⟩
abbrev S1x256 : Shape := ⟨2, ![1, 256]⟩
abbrev S256x256 : Shape := ⟨2, ![256, 256]⟩
abbrev S128x512 : Shape := ⟨2, ![128, 512]⟩
abbrev S128x1 : Shape := ⟨2, ![128, 1]⟩
abbrev S1x128 : Shape := ⟨2, ![1, 128]⟩
abbrev S128x128 : Shape := ⟨2, ![128, 128]⟩
abbrev S8x128 : Shape := ⟨2, ![8, 128]⟩
abbrev S8x1x128 : Shape := ⟨3, ![8, 1, 128]⟩
abbrev S1x128x128 : Shape := ⟨3, ![1, 128, 128]⟩
abbrev S8x128x128 : Shape := ⟨3, ![8, 128, 128]⟩
abbrev S1x1x128 : Shape := ⟨3, ![1, 1, 128]⟩
abbrev S65536 : Shape := ⟨1, ![65536]⟩

abbrev nBuf : Space → Nat
  | .hbm => 16
  | .vmem => 18
  | .smem => 0
  | _ => 0

abbrev bufTy : (tb : Table) → Fin (tcTables nBuf tb) → BufTy
  | .hbm, ⟨0, _⟩ => ⟨S256x512, .f32⟩
  | .hbm, ⟨1, _⟩ => ⟨S256, .i32⟩
  | .hbm, ⟨2, _⟩ => ⟨S1024x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S512x512, .f32⟩
  | .hbm, ⟨7, _⟩ => ⟨S512x512, .f32⟩
  | .hbm, ⟨8, _⟩ => ⟨S1x512, .f32⟩
  | .hbm, ⟨9, _⟩ => ⟨S512, .f32⟩
  | .hbm, ⟨10, _⟩ => ⟨S1x512, .f32⟩
  | .hbm, ⟨11, _⟩ => ⟨S1x1, .f32⟩
  | .hbm, ⟨12, _⟩ => ⟨S256x1, .i32⟩
  | .hbm, ⟨13, _⟩ => ⟨S1x256, .i32⟩
  | .hbm, ⟨14, _⟩ => ⟨S256x256, .f32⟩
  | .hbm, ⟨15, _⟩ => ⟨S65536, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S128x1, .i32⟩
  | .local _ .vmem, ⟨9, _⟩ => ⟨S128x1, .i32⟩
  | .local _ .vmem, ⟨10, _⟩ => ⟨S1x128, .i32⟩
  | .local _ .vmem, ⟨11, _⟩ => ⟨S1x128, .i32⟩
  | .local _ .vmem, ⟨12, _⟩ => ⟨S1x1, .f32⟩
  | .local _ .vmem, ⟨13, _⟩ => ⟨S128x128, .f32⟩
  | .local _ .vmem, ⟨14, _⟩ => ⟨S128x128, .f32⟩
  | .local _ .vmem, ⟨15, _⟩ => ⟨S128x512, .f32⟩
  | .local _ .vmem, ⟨16, _⟩ => ⟨S128x512, .f32⟩
  | .local _ .vmem, ⟨17, _⟩ => ⟨S128x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32 : BitVec 32 := 0#32
  let c16_i32 : BitVec 32 := 16#32
  let v22 : BitVec 32 := Scalar.addi c0_i32 c16_i32
  let c1_i32 : BitVec 32 := 1#32
  ⟨c0_i32, v22, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c8_i32 : BitVec 32 := 8#32
  let v54 : BitVec 32 := Scalar.muli arg15 c8_i32
  v54
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c8_i32 : BitVec 32 := 8#32
  let v54 : BitVec 32 := Scalar.muli arg15 c8_i32
  let v55 : BitVec 32 := v54
  let v57 : Index := Scalar.indexCast v55
  let c0_31 : Index := 0#32
  ![v57.toNat, 0]
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let c8_i32 : BitVec 32 := 8#32
  let v54 : BitVec 32 := Scalar.muli arg15 c8_i32
  let v55 : BitVec 32 := v54
  let v74 : Index := Scalar.indexCast v55
  let c128 : Index := 128#32
  ![v74.toNat, 128]
def k0_off3 (k0_t1 : Fin k0_t1_loop.trips) : Fin 2 → Nat :=
  let c0_i32 : BitVec 32 := 0#32
  let c1_i32 : BitVec 32 := 1#32
  let arg15 : BitVec 32 := Scf.iv c0_i32 c1_i32 k0_t1
  let c8_i32 : BitVec 32 := 8#32
  let v54 : BitVec 32 := Scalar.muli arg15 c8_i32
  let v55 : BitVec 32 := v54
  let v91 : Index := Scalar.indexCast v55
  let c256 : Index := 256#32
  ![v91.toNat, 256]
def k0_off4 (k0_t1 : Fin k0_t1_loop.trips) : Fin 2 → Nat :=
  let c0_i32 : BitVec 32 := 0#32
  let c1_i32 : BitVec 32 := 1#32
  let arg15 : BitVec 32 := Scf.iv c0_i32 c1_i32 k0_t1
  let c8_i32 : BitVec 32 := 8#32
  let v54 : BitVec 32 := Scalar.muli arg15 c8_i32
  let v55 : BitVec 32 := v54
  let v108 : Index := Scalar.indexCast v55
  let c384 : Index := 384#32
  ![v108.toNat, 384]
def k0_off5 (k0_t1 : Fin k0_t1_loop.trips) : Fin 2 → Nat :=
  let c0_i32 : BitVec 32 := 0#32
  let c1_i32 : BitVec 32 := 1#32
  let arg15 : BitVec 32 := Scf.iv c0_i32 c1_i32 k0_t1
  let c8_i32 : BitVec 32 := 8#32
  let v54 : BitVec 32 := Scalar.muli arg15 c8_i32
  let v55 : BitVec 32 := v54
  let v125 : Index := Scalar.indexCast v55
  let c0_56 : Index := 0#32
  ![v125.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S1024x512_S512x512_0_0 : S1024x512.Slices ![0, 0] S512x512
  slices_S1024x512_S512x512_512_0 : S1024x512.Slices ![512, 0] S512x512
  shapeCasts_S512_S1x512 : S512.ShapeCasts S1x512
  shapeCasts_S512x1_S512 : S512x1.ShapeCasts S512
  shapeCasts_S1_S1x1 : S1.ShapeCasts S1x1
  shapeCasts_S256_S256x1 : S256.ShapeCasts S256x1
  shapeCasts_S256_S1x256 : S256.ShapeCasts S1x256
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  shapeCasts_S128x512_S128x512 : S128x512.ShapeCasts S128x512
  h_S8x128 : 0 < S8x128.numel
  inb_S128x512_S128x128_0_0 : ∀ a, (![0, 0] : Fin 2 → Nat) a + S128x128.size a ≤ S128x512.size a
  h_S128x128 : 0 < S128x128.numel
  inb_S1x512_S1x128_0_0 : ∀ a, (![0, 0] : Fin 2 → Nat) a + S1x128.size a ≤ S1x512.size a
  h_S1x128 : 0 < S1x128.numel
  shapeCasts_S1x128_S1x128 : S1x128.ShapeCasts S1x128
  shapeCasts_S8x128_S8x1x128 : S8x128.ShapeCasts S8x1x128
  shapeCasts_S128x128_S1x128x128 : S128x128.ShapeCasts S1x128x128
  broadcasts_S8x1x128_S8x128x128 : S8x1x128.Broadcasts S8x128x128
  broadcasts_S1x128x128_S8x128x128 : S1x128x128.Broadcasts S8x128x128
  shapeCasts_S1x128_S1x1x128 : S1x128.ShapeCasts S1x1x128
  broadcasts_S1x1x128_S8x128x128 : S1x1x128.Broadcasts S8x128x128
  reduces_S8x128x128_S8x128 : S8x128x128.Reduces [2] S8x128
  inb_S128x512_S128x128_0_128 : ∀ a, (![0, 128] : Fin 2 → Nat) a + S128x128.size a ≤ S128x512.size a
  inb_S1x512_S1x128_0_128 : ∀ a, (![0, 128] : Fin 2 → Nat) a + S1x128.size a ≤ S1x512.size a
  inb_S128x512_S128x128_0_256 : ∀ a, (![0, 256] : Fin 2 → Nat) a + S128x128.size a ≤ S128x512.size a
  inb_S1x512_S1x128_0_256 : ∀ a, (![0, 256] : Fin 2 → Nat) a + S1x128.size a ≤ S1x512.size a
  inb_S128x512_S128x128_0_384 : ∀ a, (![0, 384] : Fin 2 → Nat) a + S128x128.size a ≤ S128x512.size a
  inb_S1x512_S1x128_0_384 : ∀ a, (![0, 384] : Fin 2 → Nat) a + S1x128.size a ≤ S1x512.size a
  shapeCasts_S8x128_S8x128 : S8x128.ShapeCasts S8x128
  inb_S128x128_S128x128_0_0 : ∀ a, (![0, 0] : Fin 2 → Nat) a + S128x128.size a ≤ S128x128.size a
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x128_S1x128_0_0 : ∀ a, (![0, 0] : Fin 2 → Nat) a + S1x128.size a ≤ S1x128.size a
  broadcasts_S128x1_S128x128 : S128x1.Broadcasts S128x128
  broadcasts_S1x128_S128x128 : S1x128.Broadcasts S128x128
  natLt_1_32 : 1 < 32
  shapeCasts_S256x256_S65536 : S256x256.ShapeCasts S65536
  dot_S128x512_S512x512_S128x512_1_0_0_1_n_n_wf : DotDims.WF S128x512 S512x512 S128x512 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x128.size a ≤ S128x512.size a
  k0_off2_inb : ∀ k0_t1 : Fin k0_t1_loop.trips, ∀ a, (k0_off2 k0_t1) a + S8x128.size a ≤ S128x512.size a
  k0_off3_inb : ∀ k0_t1 : Fin k0_t1_loop.trips, ∀ a, (k0_off3 k0_t1) a + S8x128.size a ≤ S128x512.size a
  k0_off4_inb : ∀ k0_t1 : Fin k0_t1_loop.trips, ∀ a, (k0_off4 k0_t1) a + S8x128.size a ≤ S128x512.size a
  k0_off5_inb : ∀ k0_t1 : Fin k0_t1_loop.trips, ∀ a, (k0_off5 k0_t1) a + S8x128.size a ≤ S128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S256x512.size a
  hwx0_0 : ∀ i : grid0.Coords, EltTy.bits .f32 = 32 ∨ (Rect.block (s := S256x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S256x512.size a
  hwx0_1 : ∀ i : grid0.Coords, EltTy.bits .f32 = 32 ∨ (Rect.block (s := S256x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S256x1.size a
  hwx0_6 : ∀ i : grid0.Coords, EltTy.bits .i32 = 32 ∨ (Rect.block (s := S256x1) S128x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x256.size a
  hwx0_7 : ∀ i : grid0.Coords, EltTy.bits .i32 = 32 ∨ (Rect.block (s := S1x256) S1x128.size (cc0_transform_7 i) (hinb0_7 i)).WholeWords (EltTy.packing .i32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S256x256.size a
  hwx0_9 : ∀ i : grid0.Coords, EltTy.bits .f32 = 32 ∨ (Rect.block (s := S256x256) S128x128.size (cc0_transform_9 i) (hinb0_9 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S128x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S256x512 : Shape := ⟨2, ![256, 512]⟩
abbrev S256 : Shape := ⟨1, ![256]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1x256x512 : Shape := ⟨3, ![1, 256, 512]⟩
abbrev S256x256x512 : Shape := ⟨3, ![256, 256, 512]⟩
abbrev S256x1x512 : Shape := ⟨3, ![256, 1, 512]⟩
abbrev S256x256x1024 : Shape := ⟨3, ![256, 256, 1024]⟩
abbrev S1x1x512 : Shape := ⟨3, ![1, 1, 512]⟩
abbrev S_ : Shape := ⟨0, ![]⟩
abbrev S256x256x1 : Shape := ⟨3, ![256, 256, 1]⟩
abbrev S1x1x1 : Shape := ⟨3, ![1, 1, 1]⟩
abbrev S256x256 : Shape := ⟨2, ![256, 256]⟩
abbrev S256x1 : Shape := ⟨2, ![256, 1]⟩
abbrev S1x256 : Shape := ⟨2, ![1, 256]⟩
abbrev S65536 : Shape := ⟨1, ![65536]⟩

abbrev nBuf : Space → Nat
  | .hbm => 56
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256, .i32⟩
  | .hbm, ⟨2, _⟩ => ⟨S1024x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S1x256x512, .f32⟩
  | .hbm, ⟨7, _⟩ => ⟨S256x256x512, .f32⟩
  | .hbm, ⟨8, _⟩ => ⟨S256x1x512, .f32⟩
  | .hbm, ⟨9, _⟩ => ⟨S256x256x512, .f32⟩
  | .hbm, ⟨10, _⟩ => ⟨S256x256x1024, .f32⟩
  | .hbm, ⟨11, _⟩ => ⟨S256x256x512, .f32⟩
  | .hbm, ⟨12, _⟩ => ⟨S1x1x512, .f32⟩
  | .hbm, ⟨13, _⟩ => ⟨S256x256x512, .f32⟩
  | .hbm, ⟨14, _⟩ => ⟨S256x256x512, .f32⟩
  | .hbm, ⟨15, _⟩ => ⟨S_, .f32⟩
  | .hbm, ⟨16, _⟩ => ⟨S256x256x512, .f32⟩
  | .hbm, ⟨17, _⟩ => ⟨S256x256x512, .f32⟩
  | .hbm, ⟨18, _⟩ => ⟨S256x256x1, .f32⟩
  | .hbm, ⟨19, _⟩ => ⟨S1x1x1, .f32⟩
  | .hbm, ⟨20, _⟩ => ⟨S256x256x1, .f32⟩
  | .hbm, ⟨21, _⟩ => ⟨S256x256x1, .f32⟩
  | .hbm, ⟨22, _⟩ => ⟨S256x256x1, .f32⟩
  | .hbm, ⟨23, _⟩ => ⟨S256x256x1, .f32⟩
  | .hbm, ⟨24, _⟩ => ⟨S_, .f32⟩
  | .hbm, ⟨25, _⟩ => ⟨S256x256x1, .f32⟩
  | .hbm, ⟨26, _⟩ => ⟨S256x256x1, .f32⟩
  | .hbm, ⟨27, _⟩ => ⟨S_, .f32⟩
  | .hbm, ⟨28, _⟩ => ⟨S256x256x1, .f32⟩
  | .hbm, ⟨29, _⟩ => ⟨S256x256x1, .f32⟩
  | .hbm, ⟨30, _⟩ => ⟨S256x256, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S256x1, .i32⟩
  | .hbm, ⟨40, _⟩ => ⟨S1x256, .i32⟩
  | .hbm, ⟨41, _⟩ => ⟨S256x256, .i32⟩
  | .hbm, ⟨42, _⟩ => ⟨S256x256, .i32⟩
  | .hbm, ⟨43, _⟩ => ⟨S256x256, .i1⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S_, .f32⟩
  | .hbm, ⟨48, _⟩ => ⟨S256x256, .f32⟩
  | .hbm, ⟨49, _⟩ => ⟨S256x256, .f32⟩
  | .hbm, ⟨50, _⟩ => ⟨S256x256, .f32⟩
  | .hbm, ⟨51, _⟩ => ⟨S256x256, .f32⟩
  | .hbm, ⟨52, _⟩ => ⟨S256x256, .f32⟩
  | .hbm, ⟨53, _⟩ => ⟨S256x256, .f32⟩
  | .hbm, ⟨54, _⟩ => ⟨S256x256, .f32⟩
  | .hbm, ⟨55, _⟩ => ⟨S65536, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S256x512_S1x256x512_1_2 : S256x512.BroadcastsInDim S1x256x512 (![1, 2] : Fin 2 → Fin S1x256x512.rank)
  bcast_S1x256x512_S256x256x512_0_1_2 : S1x256x512.BroadcastsInDim S256x256x512 (![0, 1, 2] : Fin 3 → Fin S256x256x512.rank)
  bcast_S256x512_S256x1x512_0_2 : S256x512.BroadcastsInDim S256x1x512 (![0, 2] : Fin 2 → Fin S256x1x512.rank)
  bcast_S256x1x512_S256x256x512_0_1_2 : S256x1x512.BroadcastsInDim S256x256x512 (![0, 1, 2] : Fin 3 → Fin S256x256x512.rank)
  concatenates_S256x256x512_S256x256x512_S256x256x1024_d2 : Shape.Concatenates [S256x256x512, S256x256x512] S256x256x1024 2
  bcast_S512_S1x1x512_2 : S512.BroadcastsInDim S1x1x512 (![2] : Fin 1 → Fin S1x1x512.rank)
  bcast_S1x1x512_S256x256x512_0_1_2 : S1x1x512.BroadcastsInDim S256x256x512 (![0, 1, 2] : Fin 3 → Fin S256x256x512.rank)
  bcast_S_S256x256x512 : S_.BroadcastsInDim S256x256x512 (![] : Fin 0 → Fin S256x256x512.rank)
  bcast_S1_S1x1x1_2 : S1.BroadcastsInDim S1x1x1 (![2] : Fin 1 → Fin S1x1x1.rank)
  bcast_S1x1x1_S256x256x1_0_1_2 : S1x1x1.BroadcastsInDim S256x256x1 (![0, 1, 2] : Fin 3 → Fin S256x256x1.rank)
  bcast_S_S256x256x1 : S_.BroadcastsInDim S256x256x1 (![] : Fin 0 → Fin S256x256x1.rank)
  shapeCasts_S256x256x1_S256x256 : S256x256x1.ShapeCasts S256x256
  bcast_S_S256x256 : S_.BroadcastsInDim S256x256 (![] : Fin 0 → Fin S256x256.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  shapeCasts_S256x256_S65536 : S256x256.ShapeCasts S65536
  dot_S256x256x1024_S1024x512_S256x256x512_2_0_01_1_n_n_wf : DotDims.WF S256x256x1024 S1024x512 S256x256x512 [2] [0] [0, 1] [1] [] []
  dot_S256x256x512_S512x1_S256x256x1_2_0_01_1_n_n_wf : DotDims.WF S256x256x512 S512x1 S256x256x1 [2] [0] [0, 1] [1] [] []

variable [Facts₀]

def dot_S256x256x1024_S1024x512_S256x256x512_2_0_01_1_n_n : DotDims S256x256x1024 S1024x512 S256x256x512 where
  lhsContracting := [2]
  rhsContracting := [0]
  lhsNonContracting := [0, 1]
  rhsNonContracting := [1]
  lhsBatch := []
  rhsBatch := []
  wf := dot_S256x256x1024_S1024x512_S256x256x512_2_0_01_1_n_n_wf
def dot_S256x256x512_S512x1_S256x256x1_2_0_01_1_n_n : DotDims S256x256x512 S512x1 S256x256x1 where
  lhsContracting := [2]
  rhsContracting := [0]
  lhsNonContracting := [0, 1]
  rhsNonContracting := [1]
  lhsBatch := []
  rhsBatch := []
  wf := dot_S256x256x512_S512x1_S256x256x1_2_0_01_1_n_n_wf

class Facts : Prop extends Facts₀ where

variable [Facts]
-- ==== Proof.K.Setup.lean ====
/-
  What the body's run and the launch share. The region is entered after eight host operations (two slices of the
  weight matrix, reshapes of the biases, of the second-layer weights and of the labels); `V` names each buffer's
  contents at that moment, `iblk` the block of a window's array the pipeline stages at a grid point, and
  `ms_w` / `hs_w` the staging memref the body is called with there. An input window's staging buffer holds its
  block at every point, whether the pipeline fetched it there or kept it from the point before.
-/
import proofs.«181829_j51367808860812_2_alg».proof.Proof.Gen.Kernel.Launch
import proofs.«181829_j51367808860812_2_alg».proof.Proof.Gen.Kernel.Skeleton
import proofs.«181829_j51367808860812_2_alg».proof.Proof.Gen.Kernel.Loops
import proofs.«181829_j51367808860812_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, as a valuation; -/
abbrev V₀ (c : Dev nD) : Valuation τ sig (Elt F) := fun b => m ((c : Dev nD), b)
/-- and when the region is entered: the eight host operations have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it, and its wholeness. -/
abbrev ms_0 (t : Fin cfg0.N) : Memref sig .tc .vmem S128x512 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S128x512 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x512 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S512x512 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x512 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x512 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S128x1 .i32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x128 .i32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x1 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S128x128 .f32 := win0_9.stage (cfg0.slots t 9)
abbrev hs_9 (t : Fin cfg0.N) : (ms_9 t).IsWhole := hstage0_9 ((cfg0.slots t 9).cast nbuf0_9)

/-- One staging buffer of the output window, through which its contents are stated. -/
abbrev VO : View sig .tc .vmem S128x128 .f32 := (Memref.whole cc0_stg9_0 : Memref sig .tc .vmem S128x128 .f32).view

/-- A scratch buffer held whole at contents `f`. -/
abbrev pt (c : Dev nD) (b : Ref sig .tc) (f : Buf (Elt F) ((c : Thread nD τ).loc b)) : sProp 𝕄 := ((c : Thread nD τ).loc b) ↦{fullShare} f

end Cert.Kernel.Hand
end
-- ==== Proof.K.Body.lean ====
/-
  The kernel's body run once, on any whole memrefs: the nine input windows' buffers at named contents, the three
  scratch buffers at named entry contents, the output window's buffer at anything. The run goes through the two
  projections' stores into scratch, the sixteen trips of the row-block loop (by the loop's invariant: the
  accumulator scratch holds the trips' pieces so far) and the final store; what the output buffer ends with is the
  piece the run finds.
-/
import proofs.«181829_j51367808860812_2_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's store leaves in the output's staging memref, as pieces, with the proof that from the inputs at
    their contents, the scratches at theirs and the output at anything, the body runs to the continuation holding the
    inputs as they were, the output with the pieces written, and each scratch at something. -/
noncomputable def kernelRun (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1 .i32) (harg8 : arg8.IsWhole) (arg9 : Memref sig .tc .vmem S1x128 .i32) (harg9 : arg9.IsWhole) (arg10 : Memref sig .tc .vmem S1x1 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x128 .f32) (harg14 : arg14.IsWhole)
    (x0 : Vec F S128x512 .f32) (x1 : Vec F S128x512 .f32) (x2 : Vec F S512x512 .f32) (x3 : Vec F S512x512 .f32) (x4 : Vec F S1x512 .f32) (x5 : Vec F S1x512 .f32) (x6 : Vec F S128x1 .i32) (x7 : Vec F S1x128 .i32) (x8 : Vec F S1x1 .f32)
    (s0 : BufTy.Contents (Elt F) arg12.view.ty) (s1 : BufTy.Contents (Elt F) arg13.view.ty) (s2 : BufTy.Contents (Elt F) arg14.view.ty) :
    { L : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
            ∗ (arg12.view.loc (c : Thread nD τ) ↦[arg12.view.set]{fullShare} s0) ∗ (arg13.view.loc (c : Thread nD τ) ↦[arg13.view.set]{fullShare} s1) ∗ (arg14.view.loc (c : Thread nD τ) ↦[arg14.view.set]{fullShare} s2)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ (∃ f, arg11.view.loc (c : Thread nD τ) ↦[arg11.view.set]{fullShare} arg11.view.writes (Elt F) f L)
                ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)) -∗ K ⟨⟩))
          ⊢ wp frame (wpE (defs₀ (F := F)) Variants.none c none) E
              (cc0__fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hs0, Hs1, Hs2, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [Hs0]; · iexists _; iexact Hs0
    isplitl [Hs1]; · iexists _; iexact Hs1
    iexists _; iexact Hs2

end Cert.Kernel.Hand
end
-- ==== Proof.K.Frame.lean ====
/-
  The pipeline's proof data and the body obligation.

  The accumulator scratch is written by the sixteen trips of the row-block loop, eight rows each: their rectangles tile
  the 128 × 128 buffer, so what is read back after the loop does not depend on what the scratch held when the body
  started, and neither does the piece the body stores into the output window. That piece, read through the whole
  block, is `outBlk`: a function of the nine input blocks alone. The proof data name it as what the output's staging
  buffer holds after the body at each grid point; every input window's buffer is left holding its block. The two
  windows that read the embeddings array each hold half of the array's share; every other window holds its array whole.
  Between points the invariant is the scratch buffers and the generator register, at contents nobody names.
-/
import proofs.«181829_j51367808860812_2_alg».proof.Proof.K.Body
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The sixteen trips' rectangles (eight rows of the accumulator each) tile it: every index is under one of them. -/
theorem cover_acc (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1 .i32) (harg8 : arg8.IsWhole) (arg9 : Memref sig .tc .vmem S1x128 .i32) (harg9 : arg9.IsWhole) (arg10 : Memref sig .tc .vmem S1x1 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x128 .f32) (harg14 : arg14.IsWhole)
    (X7 : BufTy.Contents (Elt F) arg7.view.ty) (X12 : BufTy.Contents (Elt F) arg12.view.ty) (X13 : BufTy.Contents (Elt F) arg13.view.ty) :
    ∀ y : S128x128.Idx, ∃ p ∈ pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 X7 X12 X13 (Scf.trips k0_t1_loop.lb k0_t1_loop.ub k0_t1_loop.st), y ∈ p.1.set :=
  View.cover_of_tiledL (s := S128x128) _ S8x128.size (by sl_kernel_rfl)

/-- So the accumulator read back after the loop is the same whatever the scratch held before the first trip. -/
theorem acc_indep (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1 .i32) (harg8 : arg8.IsWhole) (arg9 : Memref sig .tc .vmem S1x128 .i32) (harg9 : arg9.IsWhole) (arg10 : Memref sig .tc .vmem S1x1 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x128 .f32) (harg14 : arg14.IsWhole)
    (x0 : Vec F S128x512 .f32) (x1 : Vec F S128x512 .f32) (x2 : Vec F S512x512 .f32) (x3 : Vec F S512x512 .f32) (x4 : Vec F S1x512 .f32) (x5 : Vec F S1x512 .f32)
    (s2 s2' : BufTy.Contents (Elt F) arg14.view.ty) :
    kernelRun.sl.v23 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 s2 = kernelRun.sl.v23 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 s2' := by
  unfold kernelRun.sl.v23
  simp only [View.readAt_eq_ld]
  rw [View.read_writes_of_cover arg14.view s2 arg14.view s2' _ (cover_acc c i arg2 harg2 arg3 harg3 arg4 harg4 arg5 harg5 arg6 harg6 arg7 harg7 arg8 harg8 arg9 harg9 arg10 harg10 arg11 harg11 arg12 harg12 arg13 harg13 arg14 harg14 _ _ _)]

/-- The pieces the body stores into the output window do not depend on the scratches' entry contents. -/
theorem pieces_indep (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1 .i32) (harg8 : arg8.IsWhole) (arg9 : Memref sig .tc .vmem S1x128 .i32) (harg9 : arg9.IsWhole) (arg10 : Memref sig .tc .vmem S1x1 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x128 .f32) (harg14 : arg14.IsWhole)
    (x0 : Vec F S128x512 .f32) (x1 : Vec F S128x512 .f32) (x2 : Vec F S512x512 .f32) (x3 : Vec F S512x512 .f32) (x4 : Vec F S1x512 .f32) (x5 : Vec F S1x512 .f32) (x6 : Vec F S128x1 .i32) (x7 : Vec F S1x128 .i32) (x8 : Vec F S1x1 .f32) (s0 : BufTy.Contents (Elt F) arg12.view.ty) (s1 : BufTy.Contents (Elt F) arg13.view.ty) (s2 : BufTy.Contents (Elt F) arg14.view.ty)
    (s0' : BufTy.Contents (Elt F) arg12.view.ty) (s1' : BufTy.Contents (Elt F) arg13.view.ty) (s2' : BufTy.Contents (Elt F) arg14.view.ty) :
    (kernelRun (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 s0 s1 s2).1 = (kernelRun (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 s0' s1' s2').1 := by
  unfold kernelRun
  dsimp only
  unfold kernelRun.sl.r
  rw [acc_indep c i arg2 harg2 arg3 harg3 arg4 harg4 arg5 harg5 arg6 harg6 arg7 harg7 arg8 harg8 arg9 harg9 arg10 harg10 arg11 harg11 arg12 harg12 arg13 harg13 arg14 harg14 x0 x1 x2 x3 x4 x5 s2 s2']

/-- The one store into the output window is through its whole block. -/
theorem cover_out (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1 .i32) (harg8 : arg8.IsWhole) (arg9 : Memref sig .tc .vmem S1x128 .i32) (harg9 : arg9.IsWhole) (arg10 : Memref sig .tc .vmem S1x1 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x128 .f32) (harg14 : arg14.IsWhole)
    (x0 : Vec F S128x512 .f32) (x1 : Vec F S128x512 .f32) (x2 : Vec F S512x512 .f32) (x3 : Vec F S512x512 .f32) (x4 : Vec F S1x512 .f32) (x5 : Vec F S1x512 .f32) (x6 : Vec F S128x1 .i32) (x7 : Vec F S1x128 .i32) (x8 : Vec F S1x1 .f32) (s0 : BufTy.Contents (Elt F) arg12.view.ty) (s1 : BufTy.Contents (Elt F) arg13.view.ty) (s2 : BufTy.Contents (Elt F) arg14.view.ty) :
    ∀ y : S128x128.Idx, ∃ p ∈ (kernelRun (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 s0 s1 s2).1, y ∈ p.1.set :=
  View.cover_of_tiledL (s := S128x128) _ S128x128.size (by sl_kernel_rfl)

/-- What the body leaves in the output window's block, as a function of the nine input blocks (the scratches' entry
    contents fixed at junk: they do not matter). -/
def outBlk (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1 .i32) (harg8 : arg8.IsWhole) (arg9 : Memref sig .tc .vmem S1x128 .i32) (harg9 : arg9.IsWhole) (arg10 : Memref sig .tc .vmem S1x1 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x128 .f32) (harg14 : arg14.IsWhole)
    (x0 : Vec F S128x512 .f32) (x1 : Vec F S128x512 .f32) (x2 : Vec F S512x512 .f32) (x3 : Vec F S512x512 .f32) (x4 : Vec F S1x512 .f32) (x5 : Vec F S1x512 .f32) (x6 : Vec F S128x1 .i32) (x7 : Vec F S1x128 .i32) (x8 : Vec F S1x1 .f32) : Vec F S128x128 .f32 :=
  VO.read (Elt F) (VO.writes (Elt F) VO.junk (kernelRun (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 arg12.view.junk arg13.view.junk arg14.view.junk).1)

/-- Read through any view over any prior contents, the body's pieces are `outBlk`. -/
theorem read_pieces (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1 .i32) (harg8 : arg8.IsWhole) (arg9 : Memref sig .tc .vmem S1x128 .i32) (harg9 : arg9.IsWhole) (arg10 : Memref sig .tc .vmem S1x1 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x128 .f32) (harg14 : arg14.IsWhole)
    (x0 : Vec F S128x512 .f32) (x1 : Vec F S128x512 .f32) (x2 : Vec F S512x512 .f32) (x3 : Vec F S512x512 .f32) (x4 : Vec F S1x512 .f32) (x5 : Vec F S1x512 .f32) (x6 : Vec F S128x1 .i32) (x7 : Vec F S1x128 .i32) (x8 : Vec F S1x1 .f32) (s0 : BufTy.Contents (Elt F) arg12.view.ty) (s1 : BufTy.Contents (Elt F) arg13.view.ty) (s2 : BufTy.Contents (Elt F) arg14.view.ty)
    (v : View sig .tc .vmem S128x128 .f32) (f : v.ty.Contents (Elt F)) :
    v.read (Elt F) (v.writes (Elt F) f (kernelRun (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 s0 s1 s2).1) = outBlk (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 := by
  unfold outBlk
  rw [View.read_writes_of_cover v f VO VO.junk _ (cover_out c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 s0 s1 s2),
    pieces_indep c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 s0 s1 s2 arg12.view.junk arg13.view.junk arg14.view.junk]

/-! ## The proof data -/

/-- What the output window's staging buffer holds after the body at point `t`. -/
def outsAt (c : Dev nD) (t : Fin cfg0.N) : Vec F S128x128 .f32 :=
  outBlk (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outsAt m c t
  Φ _ := Pipeline.ΦA spec0 c
  q w := if w.val = 0 then fullShare.left else if w.val = 1 then fullShare.right else fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outsAt m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t))

set_option maxHeartbeats 1000000 in
/-- The body at any point: every input's buffer holds its block, the scratches are taken out of the invariant at
    whatever they hold, the run applies, and the invariant is put back; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl]
  unfold Pipeline.ΦA
  rw [scopedRest0_eq]
  iintro ⟨⟨⟨⟨%fs0, Hs0⟩, ⟨%fs1, Hs1⟩, ⟨%fs2, Hs2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) fs0 fs1 fs2).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [Hs0]; · simp only [Memref.view_whole, View.set_whole]; iexact Hs0
  isplitl [Hs1]; · simp only [Memref.view_whole, View.set_whole]; iexact Hs1
  isplitl [Hs2]; · simp only [Memref.view_whole, View.set_whole]; iexact Hs2
  iintro ⟨H0, H1, H2, H3, H4, H5, H6, H7, H8, ⟨%e9, H9⟩, ⟨%g0, Hs0⟩, ⟨%g1, Hs1⟩, ⟨%g2, Hs2⟩⟩
  isplitl [Hs0 Hs1 Hs2 Hg]
  · isplitr [Hg]
    · isplitl [Hs0]; · iexists g0; simp only [Memref.view_whole, View.set_whole]; iexact Hs0
      isplitl [Hs1]; · iexists g1; simp only [Memref.view_whole, View.set_whole]; iexact Hs1
      iexists g2; simp only [Memref.view_whole, View.set_whole]; iexact Hs2
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro
  exact read_pieces (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) fs0 fs1 fs2 _ _

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand
end
-- ==== Proof.K.Run.lean ====
/-
  The launch: @main as three segments — the eight host operations before the region, the region, the one reshape
  after it — and the run they give.

  Between segments a core holds its unscoped buffers at a valuation. The region is entered from all of them at what
  the host operations left (`V`): the nine buffers behind the windows' arrays go to the pipeline, the embeddings
  array split in two halves of its share, one for each of the two windows that read it; the other buffers bypass
  the region. At the exit the two halves are joined again, every input array is as it was, and the output window's
  array holds what the pipeline wrote back (`arrAt 9 N`). The last reshape then runs over that array and the
  result; the six arguments, untouched by any host operation, ride along to the end, where they are read back.
-/
import proofs.«181829_j51367808860812_2_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers, and what the host operations leave alone -/

/-- The TensorCore's unscoped references, as device buffers. -/
def ucRefs : Finset (DevRef τ sig) := (StableHlo.tcRefs τ sig).filter fun b => ¬ b.isScoped

omit [FloatOps F] in
/-- A core's unscoped buffers at a valuation are that set held at it. -/
theorem unscopedBufs_held (c : Dev nD) (W : Valuation τ sig (Elt F)) :
    (unscopedBufs c (fun b => W b) : sProp 𝕄) = StableHlo.held (c : Thread nD τ) ucRefs W := by
  simp only [unscopedBufs, StableHlo.held, ucRefs, StableHlo.tcRefs, Finset.filter_map, bigSep_map]
  rfl

omit [FloatOps F] in
/-- A host operation names TensorCore references only, and no scoped one. -/
theorem sub_ucRefs (op : HloOp τ sig (Elt F)) (h : op.bufs ⊆ StableHlo.tcRefs τ sig) : op.bufs ⊆ ucRefs := fun b hb =>
  Finset.mem_filter.mpr ⟨h hb, fun hs => Bool.false_ne_true ((op.no_scoped b hb).symm.trans hs)⟩

/-- The eight host operations before the region write `main_v0` … `main_v7` and nothing else. -/
theorem V_keeps (c : Dev nD) (b : Ref sig .tc) (hb : b ∉ [main_v0, main_v1, main_v2, main_v3, main_v4, main_v5, main_v6, main_v7]) :
    V m c b = m ((c : Thread nD τ).loc b) :=
  StableHlo.after_of_writes_sub (W := [main_v0, main_v1, main_v2, main_v3, main_v4, main_v5, main_v6, main_v7]) hostOps0 (V₀ m c)
    (by simp [StableHlo.unary_writes, StableHlo.reshape_writes]) hb

/-- The two buffers the reshape after the region touches. -/
def out89 : Finset (DevRef τ sig) := {Proc.devRef .tc main_v8, Proc.devRef .tc main_v9}

/-! ## The region's ends -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is the certificate's. -/
abbrev EP : Emb (UR sig nD τ) (MT nD τ sig Unit (Elt F) ℕ (UR sig nD τ) ℕ) := emb₁
/-- The launch element: the pipeline library's, at the staging cells. -/
def u₀ : UR sig nD τ := initOf (Pipeline.cells cfgs cellOf_inj) (Pipeline.launchToks cfgs cellOf_inj)

/-- What rides beside the buffers: the generator register at some state, the core owing nothing. -/
abbrev R (c : Dev nD) : sProp 𝕄 := iprop((∃ r, prngReg c r) ∗ ∃ W, owes (c : Thread nD τ) (0 : CellTallies nD τ sig Unit) W)

/-- The six argument buffers, as the region found them. -/
abbrev Keep (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5))

/-- The buffers after the region: the output window's array at what the pipeline wrote back, the rest as before. -/
abbrev V₂ (c : Dev nD) : Valuation τ sig (Elt F) :=
  Function.update (StableHlo.after hostOps0 (V₀ m c)) (Proc.devRef .tc main_v8) ((dats m 0 c).arrAt 9 cfg0.N)

/-- The result array at the end. -/
abbrev res (c : Dev nD) : Buf (Elt F) ((c : Thread nD τ).loc main_v9) := StableHlo.after hostOps1 (V₂ m c) (Proc.devRef .tc main_v9)

omit [FloatOps F] in
theorem held_out89 (c : Dev nD) (W : Valuation τ sig (Elt F)) : (StableHlo.held (c : Thread nD τ) out89 W : sProp 𝕄)
    = iprop((((c : Thread nD τ).loc main_v8) ↦{fullShare} W (Proc.devRef .tc main_v8)) ∗ (((c : Thread nD τ).loc main_v9) ↦{fullShare} W (Proc.devRef .tc main_v9))) := by
  unfold StableHlo.held out89
  rw [bigSep_eq_bigSepL_of_eq [Proc.devRef .tc main_v8, Proc.devRef .tc main_v9] (by decide) (by decide)]
  rfl

/-- The buffers behind the windows' arrays, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0) ∗ (((c : Thread nD τ).loc main_v1) ↦{fullShare} W main_v1) ∗ (((c : Thread nD τ).loc main_v2) ↦{fullShare} W main_v2) ∗ (((c : Thread nD τ).loc main_v4) ↦{fullShare} W main_v4) ∗ (((c : Thread nD τ).loc main_v6) ↦{fullShare} W main_v6) ∗ (((c : Thread nD τ).loc main_v7) ↦{fullShare} W main_v7) ∗ (((c : Thread nD τ).loc main_v5) ↦{fullShare} W main_v5) ∗ (((c : Thread nD τ).loc main_v8) ↦{fullShare} W main_v8)) := by
  unfold Pipeline.arrBufs
  rw [bigSep_eq_bigSepL_of_eq [main_arg0, main_v0, main_v1, main_v2, main_v4, main_v6, main_v7, main_v5, main_v8] (by decide) (by decide)]
  rfl

/-- The windows' arrays at the proof data's shares, one by one: the embeddings array twice, at the two halves. -/
theorem arrays_chain (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1) ∗ (((c : Thread nD τ).loc main_v0) ↦{fullShare} Fa 2) ∗ (((c : Thread nD τ).loc main_v1) ↦{fullShare} Fa 3) ∗ (((c : Thread nD τ).loc main_v2) ↦{fullShare} Fa 4) ∗ (((c : Thread nD τ).loc main_v4) ↦{fullShare} Fa 5) ∗ (((c : Thread nD τ).loc main_v6) ↦{fullShare} Fa 6) ∗ (((c : Thread nD τ).loc main_v7) ↦{fullShare} Fa 7) ∗ (((c : Thread nD τ).loc main_v5) ↦{fullShare} Fa 8) ∗ (((c : Thread nD τ).loc main_v8) ↦{fullShare} Fa 9)) := by
  unfold Pipeline.Dat.arrays
  rw [bigSep_W0]
  simp only [Memref.view_whole, View.set_whole]
  rfl

theorem owesAt_of (c : Dev nD) (t : Fin (cfg0.N + 1)) :
    iprop(∃ W, owes (c : Thread nD τ) (0 : CellTallies nD τ sig Unit) W) ⊢ ((dats m 0 c).owesAt () t : sProp 𝕄) := by
  unfold Pipeline.Dat.owesAt Pipeline.owesWithin
  iintro ⟨%W, HO⟩; iexists W; isplitr; · ipureintro; exact fun _ _ => Or.inl trivial
  iexact HO

theorem owesAt_to (c : Dev nD) (t : Fin (cfg0.N + 1)) :
    ((dats m 0 c).owesAt () t : sProp 𝕄) ⊢ iprop(∃ W, owes (c : Thread nD τ) (0 : CellTallies nD τ sig Unit) W) := by
  unfold Pipeline.Dat.owesAt Pipeline.owesWithin
  iintro ⟨%W, -, HO⟩; iexists W; iexact HO

/-! ## The segments -/

/-- The eight host operations, over all the unscoped buffers. -/
def seg0 : Pipeline.HostSeg (Name := ℕ) (U := UR sig nD τ) (pcfgs (F := F)) defs₀ 𝒱₀ L lv :=
  Pipeline.HostSeg.ofOps _ _ _ _ _ ucRefs hostOps0 (fun op h => sub_ucRefs op ((List.forall_iff_forall_mem.mp hostOps0_sub) op h))
    (fun op h => by
      simp only [List.mem_cons, List.mem_nil_iff, or_false] at h
      rcases h with rfl | rfl | rfl | rfl | rfl | rfl | rfl | rfl <;> rfl) (V₀ m) R

/-- The reshape of the output array into the result, over those two buffers; the arguments ride along. -/
def seg1 : Pipeline.HostSeg (Name := ℕ) (U := UR sig nD τ) (pcfgs (F := F)) defs₀ 𝒱₀ L lv :=
  Pipeline.HostSeg.ofOps _ _ _ _ _ out89 hostOps1
    (fun op h => by
      simp only [List.mem_cons, List.mem_nil_iff, or_false] at h
      subst h
      simp only [StableHlo.reshape_bufs, out89]
      decide)
    (fun op h => by
      simp only [List.mem_cons, List.mem_nil_iff, or_false] at h
      subst h; rfl) (V₂ m) (fun c => iprop(Keep m c ∗ R c))

set_option backward.isDefEq.respectTransparency.types false in
set_option maxHeartbeats 1000000 in
/-- The region. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) ucRefs (StableHlo.after hostOps0 (V₀ m c)) ∗ R c)
  post c := iprop(StableHlo.held (c : Thread nD τ) out89 (V₂ m c) ∗ (Keep m c ∗ R c))
  X c := iprop(∃ r, prngReg c r)
  Y c := iprop(∃ r, prngReg c r)
  Z c := iprop((((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_v9) ↦{fullShare} V m c main_v9))
  hentry c := by
    rw [show StableHlo.held (c : Thread nD τ) ucRefs (StableHlo.after hostOps0 (V₀ m c)) = unscopedBufs c (V m c) from (unscopedBufs_held c _).symm,
      Pipeline.ownSems0_none, Pipeline.unscopedBufs_split₀ cfgs (0 : Fin 1) winFacts₀0.arr_unscoped c (V m c),
      arrBufs_chain, unscopedRest0_eq, arrays_chain]
    iintro ⟨⟨⟨⟨Ha0, Hv0, Hv1, Hv2, Hv4, Hv6, Hv7, Hv5, Hv8⟩, ⟨Ha1, Ha2, Ha3, Ha4, Ha5, -, Hv9⟩⟩, ⟨Hg, HO⟩⟩, -, -⟩
    ihave Hh := (pointsTo_share (PosShare.mem_left_op_right fullShare)).1 $$ Ha0
    icases Hh with ⟨Hl, Hr⟩
    imodintro
    isplitl [Hl Hr Hv0 Hv1 Hv2 Hv4 Hv6 Hv7 Hv5 Hv8]
    · isplitl [Hl]; · iexact Hl
      isplitl [Hr]; · iexact Hr
      isplitl [Hv0]; · iexact Hv0
      isplitl [Hv1]; · iexact Hv1
      isplitl [Hv2]; · iexact Hv2
      isplitl [Hv4]; · iexact Hv4
      isplitl [Hv6]; · iexact Hv6
      isplitl [Hv7]; · iexact Hv7
      isplitl [Hv5]; · iexact Hv5
      iexact Hv8
    isplitr; · unfold Pipeline.prefHeld; rw [show (Finset.univ : Finset (Fin 0)) = ∅ from rfl, BI.bigSep_empty]; iempintro
    isplitl [HO]; · iapply (owesAt_of m c 0); iexact HO
    isplitl [Hg]; · iexact Hg
    isplitl [Ha1]; · iexact Ha1
    isplitl [Ha2]; · iexact Ha2
    isplitl [Ha3]; · iexact Ha3
    isplitl [Ha4]; · iexact Ha4
    isplitl [Ha5]; · iexact Ha5
    iexact Hv9
  hin c := by
    rw [show (dats m 0 c).Φ 0 = Pipeline.ΦA spec0 c from rfl]; unfold Pipeline.ΦA
    iintro ⟨Hg, -, Hr⟩
    isplitl [Hr]; · iexact Hr
    iexact Hg
  hout c := by
    rw [Pipeline.ownSems0_none, show (dats m 0 c).Φ (Fin.last cfg0.N) = Pipeline.ΦA spec0 c from rfl]; unfold Pipeline.ΦA
    iintro ⟨Hr, Hg⟩
    isplitl [Hg]; · iexact Hg
    isplitr; · iempintro
    iexact Hr
  hexit c := by
    rw [arrays_chain, held_out89]
    rw [(dats m 0 c).arrAt_in 0 rfl, (dats m 0 c).arrAt_in 1 rfl]
    iintro ⟨⟨Hl, Hr, -, -, -, -, -, -, -, Hv8⟩, HO, Hg, ⟨Ha1, Ha2, Ha3, Ha4, Ha5, Hv9⟩⟩
    ihave Ha0 := (pointsTo_share (PosShare.mem_left_op_right fullShare)).2 $$ [Hl Hr]
    · isplitl [Hl]; · iexact Hl
      iexact Hr
    imodintro
    isplitl [Hv8 Hv9]
    · isplitl [Hv8]
      · rw [show V₂ m c (Proc.devRef .tc main_v8) = (dats m 0 c).arrAt 9 cfg0.N from Function.update_self ..]; iexact Hv8
      · rw [show V₂ m c (Proc.devRef .tc main_v9) = V m c main_v9 from Function.update_of_ne (by decide) ..]; iexact Hv9
    isplitl [Ha0 Ha1 Ha2 Ha3 Ha4 Ha5]
    · isplitl [Ha0]; · iexact Ha0
      isplitl [Ha1]; · iexact Ha1
      isplitl [Ha2]; · iexact Ha2
      isplitl [Ha3]; · iexact Ha3
      isplitl [Ha4]; · iexact Ha4
      iexact Ha5
    isplitl [Hg]; · iexact Hg
    iapply (owesAt_to m c _); iexact HO

/-- @main as the list of the three. -/
abbrev segs : List (Pipeline.Seg (pcfgs (F := F)) adm (dats m) () defs₀ 𝒱₀ L lv) := [.host (seg0 m), .region (reg0 m), .host (seg1 m)]

/-- What a core holds at the end: the result and the output array, the six arguments, the generator register. -/
abbrev Tₙ (c : Dev nD) : sProp 𝕄 :=
  iprop(StableHlo.held (c : Thread nD τ) out89 (StableHlo.after hostOps1 (V₂ m c)) ∗ Keep m c ∗ ∃ r, prngReg c r)

/-- What the run ends with: the result array at `res`, the six arguments as launched. -/
def QR : PUnit × MemSt nD τ sig (Elt F) → Prop := fun r => ∀ c : Dev nD,
  r.2.mem ((c : Thread nD τ).loc main_v9) = res m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)

set_option backward.isDefEq.respectTransparency.types false in
set_option maxHeartbeats 1000000 in
/-- At the compiled mesh, from any memory with zero counters: every weakly fair execution of @main on the TensorCores
    terminates, nothing faulting, the result array ends at `res` and the six arguments end as they were. -/
theorem run_main : θ_run defs (onTc (τ := τ) (main (F := F))) (s₀ m ρ) (QR m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl, fun c => by
      refine (show iprop(StableHlo.held (c : Thread nD τ) out89 (StableHlo.after hostOps1 (V₂ m c)) ∗ (Keep m c ∗ R c))
        ⊢ iprop(Tₙ m c ∗ ∃ W, owes (c : Thread nD τ) (0 : CellTallies nD τ sig Unit) W) from ?_)
      iintro ⟨Hh, HK, Hg, HO⟩
      isplitr [HO]
      · isplitl [Hh]; · iexact Hh
        isplitl [HK] <;> iassumption
      · iexact HO⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, Hg, -⟩, -⟩
      imodintro
      isplitl [Hh]; · iexact Hh
      isplitl [Hg]; · iexists _; iexact Hg
      iexists ∅; iexact HO)
    (QY := fun c s => s.mem ((c : Thread nD τ).loc main_v9) = res m c
      ∧ s.mem ((c : Thread nD τ).loc main_arg0) = V m c main_arg0
      ∧ s.mem ((c : Thread nD τ).loc main_arg1) = V m c main_arg1
      ∧ s.mem ((c : Thread nD τ).loc main_arg2) = V m c main_arg2
      ∧ s.mem ((c : Thread nD τ).loc main_arg3) = V m c main_arg3
      ∧ s.mem ((c : Thread nD τ).loc main_arg4) = V m c main_arg4
      ∧ s.mem ((c : Thread nD τ).loc main_arg5) = V m c main_arg5)
    (hfin := fun c s' => by
      dsimp only [Tₙ]; rw [held_out89]
      iintro ⟨⟨⟨-, H9⟩, ⟨K0, K1, K2, K3, K4, K5⟩, -⟩, HSI⟩
      icombine HSI H9 gives %h9
      icombine HSI K0 gives %h0
      icombine HSI K1 gives %h1
      icombine HSI K2 gives %h2
      icombine HSI K3 gives %h3
      icombine HSI K4 gives %h4
      icombine HSI K5 gives %h5
      imodintro
      isplitr; · ipureintro; exact ⟨Buf.eq_of_forall_mem_univ h9, Buf.eq_of_forall_mem_univ h0, Buf.eq_of_forall_mem_univ h1, Buf.eq_of_forall_mem_univ h2, Buf.eq_of_forall_mem_univ h3, Buf.eq_of_forall_mem_univ h4, Buf.eq_of_forall_mem_univ h5⟩
      iexact HSI)
    (hQ := fun s h c => by
      obtain ⟨h9, h0, h1, h2, h3, h4, h5⟩ := h c
      exact ⟨h9, h0.trans (V_keeps m c _ (by decide)), h1.trans (V_keeps m c _ (by decide)), h2.trans (V_keeps m c _ (by decide)),
        h3.trans (V_keeps m c _ (by decide)), h4.trans (V_keeps m c _ (by decide)), h5.trans (V_keeps m c _ (by decide))⟩)

end Cert.Kernel.Hand
end
-- ==== Proof.KI.Setup.lean ====
/-
  What the body's run and the launch share. The region is entered after eight host operations (two slices of the
  weight matrix, reshapes of the biases, of the second-layer weights and of the labels); `V` names each buffer's
  contents at that moment, `iblk` the block of a window's array the pipeline stages at a grid point, and
  `ms_w` / `hs_w` the staging memref the body is called with there. An input window's staging buffer holds its
  block at every point, whether the pipeline fetched it there or kept it from the point before.
-/
import proofs.«181829_j51367808860812_2_alg».proof.Proof.Gen.KernelIdeal.Launch
import proofs.«181829_j51367808860812_2_alg».proof.Proof.Gen.KernelIdeal.Skeleton
import proofs.«181829_j51367808860812_2_alg».proof.Proof.Gen.KernelIdeal.Loops
import proofs.«181829_j51367808860812_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, as a valuation; -/
abbrev V₀ (c : Dev nD) : Valuation τ sig (Elt F) := fun b => m ((c : Dev nD), b)
/-- and when the region is entered: the eight host operations have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it, and its wholeness. -/
abbrev ms_0 (t : Fin cfg0.N) : Memref sig .tc .vmem S128x512 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S128x512 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x512 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S512x512 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x512 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x512 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S128x1 .i32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x128 .i32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x1 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S128x128 .f32 := win0_9.stage (cfg0.slots t 9)
abbrev hs_9 (t : Fin cfg0.N) : (ms_9 t).IsWhole := hstage0_9 ((cfg0.slots t 9).cast nbuf0_9)

/-- One staging buffer of the output window, through which its contents are stated. -/
abbrev VO : View sig .tc .vmem S128x128 .f32 := (Memref.whole cc0_stg9_0 : Memref sig .tc .vmem S128x128 .f32).view

/-- A scratch buffer held whole at contents `f`. -/
abbrev pt (c : Dev nD) (b : Ref sig .tc) (f : Buf (Elt F) ((c : Thread nD τ).loc b)) : sProp 𝕄 := ((c : Thread nD τ).loc b) ↦{fullShare} f

end Cert.KernelIdeal.Hand
end
-- ==== Proof.KI.Body.lean ====
/-
  The kernel's body run once, on any whole memrefs: the nine input windows' buffers at named contents, the three
  scratch buffers at named entry contents, the output window's buffer at anything. The run goes through the two
  projections' stores into scratch, the sixteen trips of the row-block loop (by the loop's invariant: the
  accumulator scratch holds the trips' pieces so far) and the final store; what the output buffer ends with is the
  piece the run finds.
-/
import proofs.«181829_j51367808860812_2_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's store leaves in the output's staging memref, as pieces, with the proof that from the inputs at
    their contents, the scratches at theirs and the output at anything, the body runs to the continuation holding the
    inputs as they were, the output with the pieces written, and each scratch at something. -/
noncomputable def kernelRun (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1 .i32) (harg8 : arg8.IsWhole) (arg9 : Memref sig .tc .vmem S1x128 .i32) (harg9 : arg9.IsWhole) (arg10 : Memref sig .tc .vmem S1x1 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x128 .f32) (harg14 : arg14.IsWhole)
    (x0 : Vec F S128x512 .f32) (x1 : Vec F S128x512 .f32) (x2 : Vec F S512x512 .f32) (x3 : Vec F S512x512 .f32) (x4 : Vec F S1x512 .f32) (x5 : Vec F S1x512 .f32) (x6 : Vec F S128x1 .i32) (x7 : Vec F S1x128 .i32) (x8 : Vec F S1x1 .f32)
    (s0 : BufTy.Contents (Elt F) arg12.view.ty) (s1 : BufTy.Contents (Elt F) arg13.view.ty) (s2 : BufTy.Contents (Elt F) arg14.view.ty) :
    { L : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
            ∗ (arg12.view.loc (c : Thread nD τ) ↦[arg12.view.set]{fullShare} s0) ∗ (arg13.view.loc (c : Thread nD τ) ↦[arg13.view.set]{fullShare} s1) ∗ (arg14.view.loc (c : Thread nD τ) ↦[arg14.view.set]{fullShare} s2)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ (∃ f, arg11.view.loc (c : Thread nD τ) ↦[arg11.view.set]{fullShare} arg11.view.writes (Elt F) f L)
                ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)) -∗ K ⟨⟩))
          ⊢ wp frame (wpE (defs₀ (F := F)) Variants.none c none) E
              (cc0__fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hs0, Hs1, Hs2, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [Hs0]; · iexists _; iexact Hs0
    isplitl [Hs1]; · iexists _; iexact Hs1
    iexists _; iexact Hs2

end Cert.KernelIdeal.Hand
end
-- ==== Proof.KI.Frame.lean ====
/-
  The pipeline's proof data and the body obligation.

  The accumulator scratch is written by the sixteen trips of the row-block loop, eight rows each: their rectangles tile
  the 128 × 128 buffer, so what is read back after the loop does not depend on what the scratch held when the body
  started, and neither does the piece the body stores into the output window. That piece, read through the whole
  block, is `outBlk`: a function of the nine input blocks alone. The proof data name it as what the output's staging
  buffer holds after the body at each grid point; every input window's buffer is left holding its block. The two
  windows that read the embeddings array each hold half of the array's share; every other window holds its array whole.
  Between points the invariant is the scratch buffers and the generator register, at contents nobody names.
-/
import proofs.«181829_j51367808860812_2_alg».proof.Proof.KI.Body
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The sixteen trips' rectangles (eight rows of the accumulator each) tile it: every index is under one of them. -/
theorem cover_acc (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1 .i32) (harg8 : arg8.IsWhole) (arg9 : Memref sig .tc .vmem S1x128 .i32) (harg9 : arg9.IsWhole) (arg10 : Memref sig .tc .vmem S1x1 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x128 .f32) (harg14 : arg14.IsWhole)
    (X7 : BufTy.Contents (Elt F) arg7.view.ty) (X12 : BufTy.Contents (Elt F) arg12.view.ty) (X13 : BufTy.Contents (Elt F) arg13.view.ty) :
    ∀ y : S128x128.Idx, ∃ p ∈ pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 X7 X12 X13 (Scf.trips k0_t1_loop.lb k0_t1_loop.ub k0_t1_loop.st), y ∈ p.1.set :=
  View.cover_of_tiledL (s := S128x128) _ S8x128.size (by sl_kernel_rfl)

/-- So the accumulator read back after the loop is the same whatever the scratch held before the first trip. -/
theorem acc_indep (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1 .i32) (harg8 : arg8.IsWhole) (arg9 : Memref sig .tc .vmem S1x128 .i32) (harg9 : arg9.IsWhole) (arg10 : Memref sig .tc .vmem S1x1 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x128 .f32) (harg14 : arg14.IsWhole)
    (x0 : Vec F S128x512 .f32) (x1 : Vec F S128x512 .f32) (x2 : Vec F S512x512 .f32) (x3 : Vec F S512x512 .f32) (x4 : Vec F S1x512 .f32) (x5 : Vec F S1x512 .f32)
    (s2 s2' : BufTy.Contents (Elt F) arg14.view.ty) :
    kernelRun.sl.v23 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 s2 = kernelRun.sl.v23 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 s2' := by
  unfold kernelRun.sl.v23
  simp only [View.readAt_eq_ld]
  rw [View.read_writes_of_cover arg14.view s2 arg14.view s2' _ (cover_acc c i arg2 harg2 arg3 harg3 arg4 harg4 arg5 harg5 arg6 harg6 arg7 harg7 arg8 harg8 arg9 harg9 arg10 harg10 arg11 harg11 arg12 harg12 arg13 harg13 arg14 harg14 _ _ _)]

/-- The pieces the body stores into the output window do not depend on the scratches' entry contents. -/
theorem pieces_indep (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1 .i32) (harg8 : arg8.IsWhole) (arg9 : Memref sig .tc .vmem S1x128 .i32) (harg9 : arg9.IsWhole) (arg10 : Memref sig .tc .vmem S1x1 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x128 .f32) (harg14 : arg14.IsWhole)
    (x0 : Vec F S128x512 .f32) (x1 : Vec F S128x512 .f32) (x2 : Vec F S512x512 .f32) (x3 : Vec F S512x512 .f32) (x4 : Vec F S1x512 .f32) (x5 : Vec F S1x512 .f32) (x6 : Vec F S128x1 .i32) (x7 : Vec F S1x128 .i32) (x8 : Vec F S1x1 .f32) (s0 : BufTy.Contents (Elt F) arg12.view.ty) (s1 : BufTy.Contents (Elt F) arg13.view.ty) (s2 : BufTy.Contents (Elt F) arg14.view.ty)
    (s0' : BufTy.Contents (Elt F) arg12.view.ty) (s1' : BufTy.Contents (Elt F) arg13.view.ty) (s2' : BufTy.Contents (Elt F) arg14.view.ty) :
    (kernelRun (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 s0 s1 s2).1 = (kernelRun (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 s0' s1' s2').1 := by
  unfold kernelRun
  dsimp only
  unfold kernelRun.sl.r
  rw [acc_indep c i arg2 harg2 arg3 harg3 arg4 harg4 arg5 harg5 arg6 harg6 arg7 harg7 arg8 harg8 arg9 harg9 arg10 harg10 arg11 harg11 arg12 harg12 arg13 harg13 arg14 harg14 x0 x1 x2 x3 x4 x5 s2 s2']

/-- The one store into the output window is through its whole block. -/
theorem cover_out (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1 .i32) (harg8 : arg8.IsWhole) (arg9 : Memref sig .tc .vmem S1x128 .i32) (harg9 : arg9.IsWhole) (arg10 : Memref sig .tc .vmem S1x1 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x128 .f32) (harg14 : arg14.IsWhole)
    (x0 : Vec F S128x512 .f32) (x1 : Vec F S128x512 .f32) (x2 : Vec F S512x512 .f32) (x3 : Vec F S512x512 .f32) (x4 : Vec F S1x512 .f32) (x5 : Vec F S1x512 .f32) (x6 : Vec F S128x1 .i32) (x7 : Vec F S1x128 .i32) (x8 : Vec F S1x1 .f32) (s0 : BufTy.Contents (Elt F) arg12.view.ty) (s1 : BufTy.Contents (Elt F) arg13.view.ty) (s2 : BufTy.Contents (Elt F) arg14.view.ty) :
    ∀ y : S128x128.Idx, ∃ p ∈ (kernelRun (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 s0 s1 s2).1, y ∈ p.1.set :=
  View.cover_of_tiledL (s := S128x128) _ S128x128.size (by sl_kernel_rfl)

/-- What the body leaves in the output window's block, as a function of the nine input blocks (the scratches' entry
    contents fixed at junk: they do not matter). -/
def outBlk (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1 .i32) (harg8 : arg8.IsWhole) (arg9 : Memref sig .tc .vmem S1x128 .i32) (harg9 : arg9.IsWhole) (arg10 : Memref sig .tc .vmem S1x1 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x128 .f32) (harg14 : arg14.IsWhole)
    (x0 : Vec F S128x512 .f32) (x1 : Vec F S128x512 .f32) (x2 : Vec F S512x512 .f32) (x3 : Vec F S512x512 .f32) (x4 : Vec F S1x512 .f32) (x5 : Vec F S1x512 .f32) (x6 : Vec F S128x1 .i32) (x7 : Vec F S1x128 .i32) (x8 : Vec F S1x1 .f32) : Vec F S128x128 .f32 :=
  VO.read (Elt F) (VO.writes (Elt F) VO.junk (kernelRun (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 arg12.view.junk arg13.view.junk arg14.view.junk).1)

/-- Read through any view over any prior contents, the body's pieces are `outBlk`. -/
theorem read_pieces (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1 .i32) (harg8 : arg8.IsWhole) (arg9 : Memref sig .tc .vmem S1x128 .i32) (harg9 : arg9.IsWhole) (arg10 : Memref sig .tc .vmem S1x1 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x128 .f32) (harg14 : arg14.IsWhole)
    (x0 : Vec F S128x512 .f32) (x1 : Vec F S128x512 .f32) (x2 : Vec F S512x512 .f32) (x3 : Vec F S512x512 .f32) (x4 : Vec F S1x512 .f32) (x5 : Vec F S1x512 .f32) (x6 : Vec F S128x1 .i32) (x7 : Vec F S1x128 .i32) (x8 : Vec F S1x1 .f32) (s0 : BufTy.Contents (Elt F) arg12.view.ty) (s1 : BufTy.Contents (Elt F) arg13.view.ty) (s2 : BufTy.Contents (Elt F) arg14.view.ty)
    (v : View sig .tc .vmem S128x128 .f32) (f : v.ty.Contents (Elt F)) :
    v.read (Elt F) (v.writes (Elt F) f (kernelRun (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 s0 s1 s2).1) = outBlk (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 := by
  unfold outBlk
  rw [View.read_writes_of_cover v f VO VO.junk _ (cover_out c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 s0 s1 s2),
    pieces_indep c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 s0 s1 s2 arg12.view.junk arg13.view.junk arg14.view.junk]

/-! ## The proof data -/

/-- What the output window's staging buffer holds after the body at point `t`. -/
def outsAt (c : Dev nD) (t : Fin cfg0.N) : Vec F S128x128 .f32 :=
  outBlk (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outsAt m c t
  Φ _ := Pipeline.ΦA spec0 c
  q w := if w.val = 0 then fullShare.left else if w.val = 1 then fullShare.right else fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outsAt m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t))

set_option maxHeartbeats 1000000 in
/-- The body at any point: every input's buffer holds its block, the scratches are taken out of the invariant at
    whatever they hold, the run applies, and the invariant is put back; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl]
  unfold Pipeline.ΦA
  rw [scopedRest0_eq]
  iintro ⟨⟨⟨⟨%fs0, Hs0⟩, ⟨%fs1, Hs1⟩, ⟨%fs2, Hs2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) fs0 fs1 fs2).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [Hs0]; · simp only [Memref.view_whole, View.set_whole]; iexact Hs0
  isplitl [Hs1]; · simp only [Memref.view_whole, View.set_whole]; iexact Hs1
  isplitl [Hs2]; · simp only [Memref.view_whole, View.set_whole]; iexact Hs2
  iintro ⟨H0, H1, H2, H3, H4, H5, H6, H7, H8, ⟨%e9, H9⟩, ⟨%g0, Hs0⟩, ⟨%g1, Hs1⟩, ⟨%g2, Hs2⟩⟩
  isplitl [Hs0 Hs1 Hs2 Hg]
  · isplitr [Hg]
    · isplitl [Hs0]; · iexists g0; simp only [Memref.view_whole, View.set_whole]; iexact Hs0
      isplitl [Hs1]; · iexists g1; simp only [Memref.view_whole, View.set_whole]; iexact Hs1
      iexists g2; simp only [Memref.view_whole, View.set_whole]; iexact Hs2
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro
  exact read_pieces (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) fs0 fs1 fs2 _ _

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand
end
-- ==== Proof.Spec.lean ====
/-
  The function both programs compute, on the extended reals, as one formula of the six argument arrays.

  For the ordered pair (row R, column C) of batch entries, the hidden layer's pre-activation at unit h is
      hid R C h = Σ_d E[C,d]·W1[d,h] + Σ_d E[R,d]·W1[512+d,h] + b1[h]
  (the first half of the weight matrix meets the COLUMN entry, the second half the ROW entry), the logit is
      Σ_h max(hid R C h, 0)·W2[h] + b2,
  the probability is its logistic clipped to [lo, hi], the target is 1 when the two labels agree and 0 otherwise,
  and the result at flat index 256·R + C is the binary cross-entropy  −(t·log p + (1 − t)·log(1 + (−p))).
  The four float literals are kept as their words: both programs spell the same words.
-/
import Idealize.ShloMosaic.PureOps.Ideal
import Idealize.ShloMosaic.Lib.ValueIdx

noncomputable section

namespace Cert.Spec

open Idealize.ShloMosaic Idealize.ShloMosaic.ValueIdx

/-- The words of the literals 0, 1, the clip's lower bound 1e-7 and its upper bound 1 − 1e-7, read at the ideal instance. -/
abbrev zeroW : EReal := Ideal.ofBits .f32 0x00000000#32
abbrev oneW : EReal := Ideal.ofBits .f32 0x3F800000#32
abbrev loW : EReal := Ideal.ofBits .f32 0x33D6BF95#32
abbrev hiW : EReal := Ideal.ofBits .f32 0x3F7FFFFE#32

variable (E : Fin 256 → Fin 512 → EReal) (lab : Fin 256 → BitVec 32) (W1 : Fin 1024 → Fin 512 → EReal)
  (b1 : Fin 512 → EReal) (W2 : Fin 512 → EReal) (b2 : EReal)

/-- The hidden unit `h`'s pre-activation for the pair (row `R`, column `C`). -/
def hid (R C : Fin 256) (h : Fin 512) : EReal :=
  ((∑ d : Fin 512, E C d * W1 (Fin.castAdd 512 d : Fin (512 + 512)) h)
    + (∑ d : Fin 512, E R d * W1 (Fin.natAdd 512 d : Fin (512 + 512)) h)) + b1 h

/-- The pair's logit: the rectified hidden layer against the second layer's weights, plus its bias. -/
def logit (R C : Fin 256) : EReal := (∑ h : Fin 512, max (hid E W1 b1 R C h) zeroW * W2 h) + b2

/-- The pair's clipped probability. -/
def prob (R C : Fin 256) : EReal := min hiW (max loW (Ideal.logistic (logit E W1 b1 W2 b2 R C)))

/-- The pair's target: do the two labels agree. -/
def tgt (R C : Fin 256) : EReal := if lab R = lab C then 1 else 0

/-- The pair's loss. -/
def loss (R C : Fin 256) : EReal :=
  -(tgt lab R C * Ideal.log (prob E W1 b1 W2 b2 R C) + (oneW - tgt lab R C) * Ideal.log1p (-(prob E W1 b1 W2 b2 R C)))

/-- The result array as one function of the six argument arrays: entry `256·R + C` is the loss of the pair (R, C). -/
def G (a0 : (⟨2, ![256, 512]⟩ : Shape).Idx → EReal) (a1 : (⟨1, ![256]⟩ : Shape).Idx → BitVec 32)
    (a2 : (⟨2, ![1024, 512]⟩ : Shape).Idx → EReal) (a3 : (⟨1, ![512]⟩ : Shape).Idx → EReal)
    (a4 : (⟨2, ![512, 1]⟩ : Shape).Idx → EReal) (a5 : (⟨1, ![1]⟩ : Shape).Idx → EReal) :
    (⟨1, ![65536]⟩ : Shape).Idx → EReal := fun i =>
  loss (fun r d => a0 (ix2 r d)) (fun r => a1 (ix1 r)) (fun k h => a2 (ix2 k h)) (fun h => a3 (ix1 h))
    (fun h => a4 (ix2 h (0 : Fin 1))) (a5 (ix1 (0 : Fin 1)))
    ⟨(i 0).val / 256, by have := (i 0).isLt; simp only [Matrix.cons_val_zero] at this; omega⟩
    ⟨(i 0).val % 256, Nat.mod_lt _ (by norm_num)⟩

end Cert.Spec

end
-- ==== Proof.Pay.Matmul.lean ====
/-
  The two matrix products of the kernel body, read at an index on the extended reals.

  Each product contracts the second axis of a 128 x 512 left operand with the first axis of a 512 x 512 right
  operand into a zero accumulator; a change of float format is the identity on the extended reals, so the entry
  at (r, h) is the plain sum over d of left (r, d) times right (d, h). The second product then adds a bias row
  broadcast along the rows.
-/
import proofs.«181829_j51367808860812_2_alg».proof.Proof.Gen.KernelIdeal.Skeleton
import proofs.«181829_j51367808860812_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-- The dimension numbers of both products: contract axis 1 of the left operand with axis 0 of the right. -/
abbrev DD : DotDims S128x512 S512x512 S128x512 := dot_S128x512_S512x512_S128x512_1_0_0_1_n_n

theorem lhs_DD_0 (i : S128x512.Idx) (q : DD.contr.Idx) : (DD.lhsIdx i q 0).val = (i 0).val := by
  unfold DotDims.lhsIdx
  rw [dif_neg (show ¬(0 : Fin S128x512.rank) ∈ DD.lhsBatch by decide),
    dif_pos (show (0 : Fin S128x512.rank) ∈ DD.lhsNonContracting by decide)]
  rfl

theorem lhs_DD_1 (i : S128x512.Idx) (q : DD.contr.Idx) : (DD.lhsIdx i q 1).val = (q ⟨0, by decide⟩).val :=
  DD.lhsIdx_val_of_single rfl i q

theorem rhs_DD_0 (i : S128x512.Idx) (q : DD.contr.Idx) : (DD.rhsIdx i q 0).val = (q ⟨0, by decide⟩).val :=
  DD.rhsIdx_val_of_single rfl i q

theorem rhs_DD_1 (i : S128x512.Idx) (q : DD.contr.Idx) : (DD.rhsIdx i q 1).val = (i 1).val := by
  unfold DotDims.rhsIdx
  rw [dif_neg (show ¬(1 : Fin S512x512.rank) ∈ DD.rhsBatch by decide),
    dif_pos (show (1 : Fin S512x512.rank) ∈ DD.rhsNonContracting by decide)]
  rfl

/-- A product into the zero accumulator at (r, h): the sum over the contracted coordinate. -/
theorem matmul_zero_ix {φ₁ φ₂ : FTy} (lhs : FVec Ideal S128x512 φ₁) (rhs : FVec Ideal S512x512 φ₂) (r : Fin 128) (h : Fin 512) :
    FloatOps.matmul DD none lhs rhs (constant (F := Ideal) S128x512 .f32 0x00000000#32) (ix2 r h)
      = ∑ d : Fin 512, lhs (ix2 r d) * rhs (ix2 d h) := by
  rw [Ideal.matmul_constant_zero_apply, ← Equiv.sum_comp (contrEquiv1 DD 512 rfl rfl).symm]
  refine Finset.sum_congr rfl fun k _ => ?_
  have hk := contrEquiv1_symm_val DD 512 rfl rfl k
  have el : DD.lhsIdx (ix2 r h) ((contrEquiv1 DD 512 rfl rfl).symm k) = ix2 r k := funext fun a => Fin.ext (by
    match a with
    | ⟨0, _⟩ => exact lhs_DD_0 _ _
    | ⟨1, _⟩ => exact (lhs_DD_1 _ _).trans hk)
  have er : DD.rhsIdx (ix2 r h) ((contrEquiv1 DD 512 rfl rfl).symm k) = ix2 k h := funext fun a => Fin.ext (by
    match a with
    | ⟨0, _⟩ => exact (rhs_DD_0 _ _).trans hk
    | ⟨1, _⟩ => exact rhs_DD_1 _ _)
  rw [el, er]

/-- The first product's payload at (r, h). -/
theorem pay4 (v0 : Vec Ideal S128x512 .f32) (v7 : Vec Ideal S512x512 .f32) (r : Fin 128) (h : Fin 512) :
    k0_pay4 (F := Ideal) v0 v7 (ix2 r h) = ∑ d : Fin 512, v0 (ix2 r d) * v7 (ix2 d h) := by
  unfold k0_pay4
  rw [shapeCast_self, shapeCast_self]
  exact matmul_zero_ix _ _ r h

/-- The second product's payload at (r, h): the sum plus the bias row's entry at h. -/
theorem pay3 (v2 : Vec Ideal S128x512 .f32) (v4 : Vec Ideal S512x512 .f32) (v11 : Vec Ideal S1x512 .f32) (r : Fin 128) (h : Fin 512) :
    k0_pay3 (F := Ideal) v2 v4 v11 (ix2 r h)
      = (∑ d : Fin 512, v2 (ix2 r d) * v4 (ix2 d h)) + v11 (ix2 (0 : Fin 1) h) := by
  unfold k0_pay3
  rw [shapeCast_self, shapeCast_self, shapeCast_self]
  exact congrArg₂ (fun x y : EReal => x + y) (matmul_zero_ix _ _ r h)
    (broadcastTo_1b_ab_apply v11 broadcasts_S1x512_S128x512 r h)

end Cert.KernelIdeal.Pay

end
-- ==== Proof.Pay.Lane.lean ====
/-
  The lane sums of the kernel's loop body, read at an index on the extended reals.

  For a block of 8 row entries x, all 128 column entries y and a weight row w over one chunk of 128 hidden units,
  the body forms the 8 x 128 x 128 array  max (x[s,l] + y[c,l]) 0 * w[0,l]  by broadcasting each operand along the
  axes it lacks, and sums it over the last axis l. A trip adds two such sums to a zero splat, and then two more to
  that: the entry at (s, c) is a sum of four sums over l, in the order the body adds them.
-/
import proofs.«181829_j51367808860812_2_alg».proof.Proof.Gen.KernelIdeal.Skeleton
import proofs.«181829_j51367808860812_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## The layout operations of the lane product, at an index -/

section Layout
variable {α : Type}

/-- An `[a, 1, b]` array broadcast to `[a, c, b]` reads, at `(p, q, l)`, the operand at `(p, 0, l)`. -/
theorem broadcastTo_a1b_acb_apply {a c b : ℕ} (v : (⟨3, ![a, 1, b]⟩ : Shape).Idx → α)
    (h : (⟨3, ![a, 1, b]⟩ : Shape).Broadcasts ⟨3, ![a, c, b]⟩) (p : Fin a) (q : Fin c) (l : Fin b) :
    broadcastTo ⟨3, ![a, c, b]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if b = 1 then 0 else l.val
    split
    · have := l.isLt; omega
    · rfl

/-- A `[1, c, b]` array broadcast to `[a, c, b]` reads, at `(p, q, l)`, the operand at `(0, q, l)`. -/
theorem broadcastTo_1cb_acb_apply {a c b : ℕ} (v : (⟨3, ![1, c, b]⟩ : Shape).Idx → α)
    (h : (⟨3, ![1, c, b]⟩ : Shape).Broadcasts ⟨3, ![a, c, b]⟩) (p : Fin a) (q : Fin c) (l : Fin b) :
    broadcastTo ⟨3, ![a, c, b]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if c = 1 then 0 else q.val
    split
    · have := q.isLt; omega
    · rfl
  | ⟨2, _⟩ =>
    show l.val = if b = 1 then 0 else l.val
    split
    · have := l.isLt; omega
    · rfl

/-- A `[1, 1, b]` array broadcast to `[a, c, b]` reads, at `(p, q, l)`, the operand at `(0, 0, l)`. -/
theorem broadcastTo_11b_acb_apply {a c b : ℕ} (v : (⟨3, ![1, 1, b]⟩ : Shape).Idx → α)
    (h : (⟨3, ![1, 1, b]⟩ : Shape).Broadcasts ⟨3, ![a, c, b]⟩) (p : Fin a) (q : Fin c) (l : Fin b) :
    broadcastTo ⟨3, ![a, c, b]⟩ v h (ix3 p q l) = v (ix3 (0 : Fin 1) (0 : Fin 1) l) := by
  refine broadcastTo_apply v h (ix3 p q l) (ix3 (0 : Fin 1) (0 : Fin 1) l) fun ax => ?_
  match ax with
  | ⟨0, _⟩ => rfl
  | ⟨1, _⟩ => rfl
  | ⟨2, _⟩ =>
    show l.val = if b = 1 then 0 else l.val
    split
    · have := l.isLt; omega
    · rfl

/-- An `[a, b]` array cast to `[a, 1, b]` reads, at `(p, u, l)`, the operand at `(p, l)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (l : Fin b) :
    shapeCast ⟨3, ![a, 1, b]⟩ x h (ix3 p u l) = x (ix2 p l) :=
  shapeCast_apply x h _ _ (by
    have hu : u.val = 0 := by omega
    rw [Shape.rowMajor_val_three, Shape.rowMajor_val_two]
    show p.val * b + l.val = (p.val * 1 + u.val) * b + l.val
    rw [hu, Nat.mul_one, Nat.add_zero])

end Layout

/-! ## One lane product and its sum -/

/-- The array the body sums over its last axis: at `(s, c, l)`, `max (x[s,l] + y[c,l]) 0 * w[0,l]`. -/
def term (x : Vec Ideal S8x128 .f32) (y : Vec Ideal S128x128 .f32) (w : Vec Ideal S1x128 .f32) : FVec Ideal S8x128x128 .f32 :=
  mulf
    (maximumf
      (addf
        (broadcastTo S8x128x128 (shapeCast S8x1x128 x shapeCasts_S8x128_S8x1x128) broadcasts_S8x1x128_S8x128x128)
        (broadcastTo S8x128x128 (shapeCast S1x128x128 y shapeCasts_S128x128_S1x128x128) broadcasts_S1x128x128_S8x128x128))
      (broadcast S8x128x128 (Scalar.ofBits (F := Ideal) .f32 0x00000000#32)))
    (broadcastTo S8x128x128
      (shapeCast S1x1x128 (shapeCast S1x128 w shapeCasts_S1x128_S1x128) shapeCasts_S1x128_S1x1x128)
      broadcasts_S1x1x128_S8x128x128)

theorem term_ix (x : Vec Ideal S8x128 .f32) (y : Vec Ideal S128x128 .f32) (w : Vec Ideal S1x128 .f32)
    (s : Fin 8) (c l : Fin 128) :
    term x y w (ix3 s c l) = max (x (ix2 s l) + y (ix2 c l)) Cert.Spec.zeroW * w (ix2 (0 : Fin 1) l) := by
  unfold term
  refine congrArg₂ (fun p q : EReal => p * q)
    (congrArg₂ (fun p q : EReal => max p q) (congrArg₂ (fun p q : EReal => p + q) ?_ ?_) rfl) ?_
  · exact (broadcastTo_a1b_acb_apply _ broadcasts_S8x1x128_S8x128x128 s c l).trans
      (shapeCast_ab_a1b_apply x shapeCasts_S8x128_S8x1x128 s 0 l)
  · exact (broadcastTo_1cb_acb_apply _ broadcasts_S1x128x128_S8x128x128 s c l).trans
      (shapeCast_ab_1ab_apply y shapeCasts_S128x128_S1x128x128 0 c l)
  · refine (broadcastTo_11b_acb_apply _ broadcasts_S1x1x128_S8x128x128 s c l).trans ?_
    refine (shapeCast_ab_1ab_apply _ shapeCasts_S1x128_S1x1x128 0 0 l).trans ?_
    rw [shapeCast_self]

/-- The index the reduction over the last axis inserts. -/
theorem lift_ix (s : Fin 8) (c l : Fin 128) :
    reduces_S8x128x128_S8x128.lift (ix2 s c) l = ix3 s c l :=
  funext fun a => Fin.ext (by
    match a with
    | ⟨0, _⟩ => rfl
    | ⟨1, _⟩ => rfl
    | ⟨2, _⟩ => rfl)

/-- The sum of one lane product over the last axis, at (s, c). -/
theorem laneSum_ix (x : Vec Ideal S8x128 .f32) (y : Vec Ideal S128x128 .f32) (w : Vec Ideal S1x128 .f32)
    (s : Fin 8) (c : Fin 128) :
    multiReduction (F := Ideal) .add [2] S8x128 (term x y w) 0x00000000#32 reduces_S8x128x128_S8x128 (.inl rfl) rfl (ix2 s c)
      = ∑ l : Fin 128, max (x (ix2 s l) + y (ix2 c l)) Cert.Spec.zeroW * w (ix2 (0 : Fin 1) l) := by
  refine (Ideal.multiReduction_add_single (term x y w) 0x00000000#32 reduces_S8x128x128_S8x128 (.inl rfl) rfl (ix2 s c)).trans ?_
  refine Finset.sum_congr rfl fun l _ => ?_
  exact (congrArg (term x y w) (lift_ix s c l)).trans (term_ix x y w s c l)

/-! ## The payloads -/

/-- The first half of a trip at (s, c): the zero word plus the first lane sum, plus the second. -/
theorem pay2 (v58 : Vec Ideal S8x128 .f32) (v59 : Vec Ideal S128x128 .f32) (v60 : Vec Ideal S1x128 .f32)
    (v75 : Vec Ideal S8x128 .f32) (v76 : Vec Ideal S128x128 .f32) (v77 : Vec Ideal S1x128 .f32) (s : Fin 8) (c : Fin 128) :
    k0_pay2 (F := Ideal) v58 v59 v60 v75 v76 v77 (ix2 s c)
      = (Cert.Spec.zeroW + ∑ l : Fin 128, max (v58 (ix2 s l) + v59 (ix2 c l)) Cert.Spec.zeroW * v60 (ix2 (0 : Fin 1) l))
        + ∑ l : Fin 128, max (v75 (ix2 s l) + v76 (ix2 c l)) Cert.Spec.zeroW * v77 (ix2 (0 : Fin 1) l) := by
  unfold k0_pay2
  exact congrArg₂ (fun p q : EReal => p + q)
    (congrArg (fun q : EReal => Cert.Spec.zeroW + q) (laneSum_ix v58 v59 v60 s c)) (laneSum_ix v75 v76 v77 s c)

/-- The same with the zero word, which is the extended real 0, removed. -/
theorem pay2' (v58 : Vec Ideal S8x128 .f32) (v59 : Vec Ideal S128x128 .f32) (v60 : Vec Ideal S1x128 .f32)
    (v75 : Vec Ideal S8x128 .f32) (v76 : Vec Ideal S128x128 .f32) (v77 : Vec Ideal S1x128 .f32) (s : Fin 8) (c : Fin 128) :
    k0_pay2 (F := Ideal) v58 v59 v60 v75 v76 v77 (ix2 s c)
      = (∑ l : Fin 128, max (v58 (ix2 s l) + v59 (ix2 c l)) Cert.Spec.zeroW * v60 (ix2 (0 : Fin 1) l))
        + ∑ l : Fin 128, max (v75 (ix2 s l) + v76 (ix2 c l)) Cert.Spec.zeroW * v77 (ix2 (0 : Fin 1) l) :=
  (pay2 v58 v59 v60 v75 v76 v77 s c).trans
    (congrArg (fun p : EReal => p + ∑ l : Fin 128, max (v75 (ix2 s l) + v76 (ix2 c l)) Cert.Spec.zeroW * v77 (ix2 (0 : Fin 1) l))
      ((congrArg (fun z : EReal => z + ∑ l : Fin 128, max (v58 (ix2 s l) + v59 (ix2 c l)) Cert.Spec.zeroW * v60 (ix2 (0 : Fin 1) l))
        Ideal.ofBits_zero_f32).trans (zero_add _)))

/-- The second half of a trip at (s, c): the carried value plus the third lane sum, plus the fourth. -/
theorem pay5 (v90 : FVec Ideal S8x128 .f32) (v92 : Vec Ideal S8x128 .f32) (v93 : Vec Ideal S128x128 .f32) (v94 : Vec Ideal S1x128 .f32)
    (v109 : Vec Ideal S8x128 .f32) (v110 : Vec Ideal S128x128 .f32) (v111 : Vec Ideal S1x128 .f32) (s : Fin 8) (c : Fin 128) :
    k0_pay5 (F := Ideal) v90 v92 v93 v94 v109 v110 v111 (ix2 s c)
      = (v90 (ix2 s c) + ∑ l : Fin 128, max (v92 (ix2 s l) + v93 (ix2 c l)) Cert.Spec.zeroW * v94 (ix2 (0 : Fin 1) l))
        + ∑ l : Fin 128, max (v109 (ix2 s l) + v110 (ix2 c l)) Cert.Spec.zeroW * v111 (ix2 (0 : Fin 1) l) := by
  unfold k0_pay5
  rw [shapeCast_self]
  exact congrArg₂ (fun p q : EReal => p + q)
    (congrArg (fun q : EReal => v90 (ix2 s c) + q) (laneSum_ix v92 v93 v94 s c)) (laneSum_ix v109 v110 v111 s c)

end Cert.KernelIdeal.Pay

end
-- ==== Proof.LibLoadAt.lean ====
/-
  Two facts about loads through rectangles of unit strides, for any shapes and any family of element values.

  `ld_at`: a load through the rectangle with offsets `off` and sizes `[a, b]` of a rank-2 array, read at (s, l), is the
  array at (off 0 + s, off 1 + l).
  `readAt_whole`: a load through the whole-shape rectangle at zero offsets of a whole buffer holding `x` reads `x`.
-/
import Idealize.ShloMosaic.Lib.Pipeline.FrameBody
import Idealize.ShloMosaic.Lib.Pipeline.Value
import Idealize.ShloMosaic.Lib.ValueIdx

noncomputable section

namespace Cert.Lib

open Idealize.ShloMosaic Idealize.ShloMosaic.ValueIdx

/-- A load through a rectangle of unit strides, read at an index: the contents at the index shifted by the offsets. -/
theorem ld_at {Val : EltTy → Type} {A B a b : Nat} {e : EltTy} (X : (⟨2, ![A, B]⟩ : Shape).Idx → Val e) (off : Fin 2 → Nat)
    (inb : ∀ x, off x + (![a, b] : Fin 2 → Nat) x ≤ (⟨2, ![A, B]⟩ : Shape).size x) (s : Fin a) (l : Fin b)
    (R : Fin A) (Q : Fin B) (h0 : R.val = off 0 + s.val) (h1 : Q.val = off 1 + l.val) :
    View.ld X (Rect.unit (s := ⟨2, ![A, B]⟩) off ![a, b] inb) (ix2 s l) = X (ix2 R Q) := by
  show X ((Rect.unit (s := ⟨2, ![A, B]⟩) off ![a, b] inb).idx (ix2 s l)) = X (ix2 R Q)
  congr 1; funext d; apply Fin.ext
  match d with
  | ⟨0, _⟩ => show off 0 + 1 * s.val = R.val; omega
  | ⟨1, _⟩ => show off 1 + 1 * l.val = Q.val; omega

/-- The zero offsets of a rank-2 rectangle, as the constant function. -/
theorem zero2 : (![0, 0] : Fin 2 → Nat) = fun _ => 0 := funext fun a => by fin_cases a <;> rfl

/-- A load of a whole buffer through the whole-shape rectangle reads its contents. -/
theorem readAt_whole {Val : EltTy → Type} {sig : RefSig} {κ : Kind} {sp : Space} {S : Shape} {e : EltTy}
    (a : Memref sig κ sp S e) (ha : a.IsWhole) (x : S.Idx → Val e)
    {off : Fin S.rank → Nat} (hz : off = fun _ => 0) (inb : ∀ d, off d + S.size d ≤ S.size d) :
    View.readAt Val a.view (Rect.unit off S.size inb).toLoadRect (ha.unread x) = x := by
  rw [View.readAt_eq_ld, ha.read_unread, View.ld_unit_zero hz]

end Cert.Lib

end
-- ==== Proof.KI.Acc.lean ====
/-
  The accumulator after the row-block loop, as one function of the index.

  Trip `k` of the loop reads rows 8·k … 8·k+7 of the row projection `bm`, the whole column projection `a` and the
  second-layer weights `w`, each in four chunks of 128 lanes, and stores into the same eight rows of the accumulator,
  at row s and column q, the sum over the four chunks of  Σ_l max(bm[8k+s, 128c+l] + a[q, 128c+l], 0) · w[128c+l]
  (chunks added left to right). So every trip's piece agrees with one function `accF` of the accumulator's index; the
  sixteen pieces tile the accumulator; hence the accumulator read back after the loop is `accF`, whatever it held before.
-/
import proofs.«181829_j51367808860812_2_alg».proof.Proof.KI.Frame
import proofs.«181829_j51367808860812_2_alg».proof.Proof.Pay.Matmul
import proofs.«181829_j51367808860812_2_alg».proof.Proof.Pay.Lane
import proofs.«181829_j51367808860812_2_alg».proof.Proof.Spec
import proofs.«181829_j51367808860812_2_alg».proof.Proof.LibLoadAt
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open Cert.KernelIdeal.Pay

/-- A load through a rectangle of unit strides, read at an index: the contents at the index shifted by the offsets. -/
theorem ld_at {A B a b : Nat} {e : EltTy} (X : (⟨2, ![A, B]⟩ : Shape).Idx → Elt Ideal e) (off : Fin 2 → Nat)
    (inb : ∀ x, off x + (![a, b] : Fin 2 → Nat) x ≤ (⟨2, ![A, B]⟩ : Shape).size x) (s : Fin a) (l : Fin b)
    (R : Fin A) (Q : Fin B) (h0 : R.val = off 0 + s.val) (h1 : Q.val = off 1 + l.val) :
    View.ld X (Rect.unit (s := ⟨2, ![A, B]⟩) off ![a, b] inb) (ix2 s l) = X (ix2 R Q) :=
  Cert.Lib.ld_at X off inb s l R Q h0 h1

/-- The four lane chunks of the rectified outer sum at row `r` and column `q`, against the second-layer weights. -/
def ch0 (bm a : S128x512.Idx → EReal) (w : S1x512.Idx → EReal) (r q : Fin 128) : EReal := ∑ l : Fin 128, max (bm (ix2 r (⟨l.val, by have := l.isLt; omega⟩ : Fin 512)) + a (ix2 q (⟨l.val, by have := l.isLt; omega⟩ : Fin 512))) Cert.Spec.zeroW * w (ix2 (0 : Fin 1) (⟨l.val, by have := l.isLt; omega⟩ : Fin 512))
def ch1 (bm a : S128x512.Idx → EReal) (w : S1x512.Idx → EReal) (r q : Fin 128) : EReal := ∑ l : Fin 128, max (bm (ix2 r (⟨128 + l.val, by have := l.isLt; omega⟩ : Fin 512)) + a (ix2 q (⟨128 + l.val, by have := l.isLt; omega⟩ : Fin 512))) Cert.Spec.zeroW * w (ix2 (0 : Fin 1) (⟨128 + l.val, by have := l.isLt; omega⟩ : Fin 512))
def ch2 (bm a : S128x512.Idx → EReal) (w : S1x512.Idx → EReal) (r q : Fin 128) : EReal := ∑ l : Fin 128, max (bm (ix2 r (⟨256 + l.val, by have := l.isLt; omega⟩ : Fin 512)) + a (ix2 q (⟨256 + l.val, by have := l.isLt; omega⟩ : Fin 512))) Cert.Spec.zeroW * w (ix2 (0 : Fin 1) (⟨256 + l.val, by have := l.isLt; omega⟩ : Fin 512))
def ch3 (bm a : S128x512.Idx → EReal) (w : S1x512.Idx → EReal) (r q : Fin 128) : EReal := ∑ l : Fin 128, max (bm (ix2 r (⟨384 + l.val, by have := l.isLt; omega⟩ : Fin 512)) + a (ix2 q (⟨384 + l.val, by have := l.isLt; omega⟩ : Fin 512))) Cert.Spec.zeroW * w (ix2 (0 : Fin 1) (⟨384 + l.val, by have := l.isLt; omega⟩ : Fin 512))

/-- The accumulator at row `r`, column `q`: the chunks added left to right. -/
def accF (bm a : S128x512.Idx → EReal) (w : S1x512.Idx → EReal) (r q : Fin 128) : EReal :=
  ((ch0 bm a w r q + ch1 bm a w r q) + ch2 bm a w r q) + ch3 bm a w r q

variable (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1 .i32) (harg8 : arg8.IsWhole) (arg9 : Memref sig .tc .vmem S1x128 .i32) (harg9 : arg9.IsWhole) (arg10 : Memref sig .tc .vmem S1x1 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x128 .f32) (harg14 : arg14.IsWhole)
  (X7 : BufTy.Contents (Elt Ideal) arg7.view.ty) (X12 : BufTy.Contents (Elt Ideal) arg12.view.ty) (X13 : BufTy.Contents (Elt Ideal) arg13.view.ty)
  (bm a : S128x512.Idx → EReal) (w : S1x512.Idx → EReal)

/-- One trip's piece, at row `s` of its eight and column `q`, is the accumulator function at row 8·k + s. -/
theorem trip_agree (h12 : arg12.view.read (Elt Ideal) X12 = bm) (h13 : arg13.view.read (Elt Ideal) X13 = a) (h7 : arg7.view.read (Elt Ideal) X7 = w)
    (k : Fin k0_t1_loop.trips) :
    ∀ p ∈ tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 X7 X12 X13 k,
      ∀ x : p.1.shape.Idx, p.2 x = (fun y : S128x128.Idx => accF bm a w (y 0) (y 1)) (p.1.emb x) := by
  have hk : k.val < 16 := Nat.lt_of_lt_of_le k.isLt k0_t1_abs.2.1
  have o1 := k0_off1_eq k; have o2 := k0_off2_eq k; have o3 := k0_off3_eq k; have o4 := k0_off4_eq k; have o5 := k0_off5_eq k
  unfold tripL_k0_t1 trip_k0_t1
  dsimp only
  unfold trip_k0_t1.sl.r trip_k0_t1.sl.r_1 trip_k0_t1.sl.r_2
  intro p hp x
  rw [List.mem_singleton] at hp
  subst hp
  obtain ⟨s, q, rfl⟩ : ∃ (s : Fin 8) (q : Fin 128), x = ix2 s q := ⟨x 0, x 1, eq_ix2 x⟩
  have hs := s.isLt
  have hq := q.isLt
  have hemb : (Rect.unit (s := S128x128) (k0_off5 k) ![8, 128] (k0_off5_inb k)).emb (ix2 s q)
      = ix2 (⟨8 * k.val + s.val, by omega⟩ : Fin 128) q := by
    funext d; apply Fin.ext
    match d with
    | ⟨0, _⟩ => first | (show (k0_off5 k) 0 + 1 * s.val = 8 * k.val + s.val; rw [o5]; simp) | (show (k0_off5 k) 0 + s.val * 1 = 8 * k.val + s.val; rw [o5]; simp) | (show (k0_off5 k) 0 + s.val = 8 * k.val + s.val; rw [o5]; simp)
    | ⟨1, _⟩ => first | (show (k0_off5 k) 1 + 1 * q.val = q.val; rw [o5]; simp) | (show (k0_off5 k) 1 + q.val * 1 = q.val; rw [o5]; simp) | (show (k0_off5 k) 1 + q.val = q.val; rw [o5]; simp)
  show k0_pay5 (F := Ideal) _ _ _ _ _ _ _ (ix2 s q) = accF bm a w ((Rect.unit (s := S128x128) (k0_off5 k) ![8, 128] (k0_off5_inb k)).emb (ix2 s q) 0) ((Rect.unit (s := S128x128) (k0_off5 k) ![8, 128] (k0_off5_inb k)).emb (ix2 s q) 1)
  rw [hemb]
  show _ = accF bm a w (⟨8 * k.val + s.val, by omega⟩ : Fin 128) q
  rw [pay5, pay2']
  simp only [View.readAt_eq_ld, h12, h13, h7]
  unfold accF ch0 ch1 ch2 ch3
  have e1 : ∀ l : Fin 128, View.ld (Val := Elt Ideal) (e' := .f32) bm (Rect.unit (s := S128x512) (k0_off1 k) S8x128.size (k0_off1_inb k)) (ix2 s l)
      = bm (ix2 (⟨8 * k.val + s.val, by omega⟩ : Fin 128) (⟨l.val, by have := l.isLt; omega⟩ : Fin 512)) := fun l =>
    ld_at (e := .f32) (A := 128) (B := 512) (a := 8) (b := 128) bm (k0_off1 k) (k0_off1_inb k) s l (⟨8 * k.val + s.val, by omega⟩ : Fin 128) (⟨l.val, by have := l.isLt; omega⟩ : Fin 512) (by rw [o1]; simp) (by rw [o1]; simp)
  have e2 : ∀ l : Fin 128, View.ld (Val := Elt Ideal) (e' := .f32) bm (Rect.unit (s := S128x512) (k0_off2 k) S8x128.size (k0_off2_inb k)) (ix2 s l)
      = bm (ix2 (⟨8 * k.val + s.val, by omega⟩ : Fin 128) (⟨128 + l.val, by have := l.isLt; omega⟩ : Fin 512)) := fun l =>
    ld_at (e := .f32) (A := 128) (B := 512) (a := 8) (b := 128) bm (k0_off2 k) (k0_off2_inb k) s l (⟨8 * k.val + s.val, by omega⟩ : Fin 128) (⟨128 + l.val, by have := l.isLt; omega⟩ : Fin 512) (by rw [o2]; simp) (by rw [o2]; simp)
  have e3 : ∀ l : Fin 128, View.ld (Val := Elt Ideal) (e' := .f32) bm (Rect.unit (s := S128x512) (k0_off3 k) S8x128.size (k0_off3_inb k)) (ix2 s l)
      = bm (ix2 (⟨8 * k.val + s.val, by omega⟩ : Fin 128) (⟨256 + l.val, by have := l.isLt; omega⟩ : Fin 512)) := fun l =>
    ld_at (e := .f32) (A := 128) (B := 512) (a := 8) (b := 128) bm (k0_off3 k) (k0_off3_inb k) s l (⟨8 * k.val + s.val, by omega⟩ : Fin 128) (⟨256 + l.val, by have := l.isLt; omega⟩ : Fin 512) (by rw [o3]; simp) (by rw [o3]; simp)
  have e4 : ∀ l : Fin 128, View.ld (Val := Elt Ideal) (e' := .f32) bm (Rect.unit (s := S128x512) (k0_off4 k) S8x128.size (k0_off4_inb k)) (ix2 s l)
      = bm (ix2 (⟨8 * k.val + s.val, by omega⟩ : Fin 128) (⟨384 + l.val, by have := l.isLt; omega⟩ : Fin 512)) := fun l =>
    ld_at (e := .f32) (A := 128) (B := 512) (a := 8) (b := 128) bm (k0_off4 k) (k0_off4_inb k) s l (⟨8 * k.val + s.val, by omega⟩ : Fin 128) (⟨384 + l.val, by have := l.isLt; omega⟩ : Fin 512) (by rw [o4]; simp) (by rw [o4]; simp)
  have a1 : ∀ l : Fin 128, View.ld (Val := Elt Ideal) (e' := .f32) a (Rect.unit (s := S128x512) ![0, 0] S128x128.size inb_S128x512_S128x128_0_0) (ix2 q l)
      = a (ix2 q (⟨l.val, by have := l.isLt; omega⟩ : Fin 512)) := fun l => ld_at (e := .f32) (A := 128) (B := 512) (a := 128) (b := 128) a ![0, 0] inb_S128x512_S128x128_0_0 q l q (⟨l.val, by have := l.isLt; omega⟩ : Fin 512) (by simp) (by simp)
  have a2 : ∀ l : Fin 128, View.ld (Val := Elt Ideal) (e' := .f32) a (Rect.unit (s := S128x512) ![0, 128] S128x128.size inb_S128x512_S128x128_0_128) (ix2 q l)
      = a (ix2 q (⟨128 + l.val, by have := l.isLt; omega⟩ : Fin 512)) := fun l => ld_at (e := .f32) (A := 128) (B := 512) (a := 128) (b := 128) a ![0, 128] inb_S128x512_S128x128_0_128 q l q (⟨128 + l.val, by have := l.isLt; omega⟩ : Fin 512) (by simp) (by simp)
  have a3 : ∀ l : Fin 128, View.ld (Val := Elt Ideal) (e' := .f32) a (Rect.unit (s := S128x512) ![0, 256] S128x128.size inb_S128x512_S128x128_0_256) (ix2 q l)
      = a (ix2 q (⟨256 + l.val, by have := l.isLt; omega⟩ : Fin 512)) := fun l => ld_at (e := .f32) (A := 128) (B := 512) (a := 128) (b := 128) a ![0, 256] inb_S128x512_S128x128_0_256 q l q (⟨256 + l.val, by have := l.isLt; omega⟩ : Fin 512) (by simp) (by simp)
  have a4 : ∀ l : Fin 128, View.ld (Val := Elt Ideal) (e' := .f32) a (Rect.unit (s := S128x512) ![0, 384] S128x128.size inb_S128x512_S128x128_0_384) (ix2 q l)
      = a (ix2 q (⟨384 + l.val, by have := l.isLt; omega⟩ : Fin 512)) := fun l => ld_at (e := .f32) (A := 128) (B := 512) (a := 128) (b := 128) a ![0, 384] inb_S128x512_S128x128_0_384 q l q (⟨384 + l.val, by have := l.isLt; omega⟩ : Fin 512) (by simp) (by simp)
  have w1 : ∀ l : Fin 128, View.ld (Val := Elt Ideal) (e' := .f32) w (Rect.unit (s := S1x512) ![0, 0] S1x128.size inb_S1x512_S1x128_0_0) (ix2 (0 : Fin 1) l)
      = w (ix2 (0 : Fin 1) (⟨l.val, by have := l.isLt; omega⟩ : Fin 512)) := fun l => ld_at (e := .f32) (A := 1) (B := 512) (a := 1) (b := 128) w ![0, 0] inb_S1x512_S1x128_0_0 (0 : Fin 1) l (0 : Fin 1) (⟨l.val, by have := l.isLt; omega⟩ : Fin 512) (by simp) (by simp)
  have w2 : ∀ l : Fin 128, View.ld (Val := Elt Ideal) (e' := .f32) w (Rect.unit (s := S1x512) ![0, 128] S1x128.size inb_S1x512_S1x128_0_128) (ix2 (0 : Fin 1) l)
      = w (ix2 (0 : Fin 1) (⟨128 + l.val, by have := l.isLt; omega⟩ : Fin 512)) := fun l => ld_at (e := .f32) (A := 1) (B := 512) (a := 1) (b := 128) w ![0, 128] inb_S1x512_S1x128_0_128 (0 : Fin 1) l (0 : Fin 1) (⟨128 + l.val, by have := l.isLt; omega⟩ : Fin 512) (by simp) (by simp)
  have w3 : ∀ l : Fin 128, View.ld (Val := Elt Ideal) (e' := .f32) w (Rect.unit (s := S1x512) ![0, 256] S1x128.size inb_S1x512_S1x128_0_256) (ix2 (0 : Fin 1) l)
      = w (ix2 (0 : Fin 1) (⟨256 + l.val, by have := l.isLt; omega⟩ : Fin 512)) := fun l => ld_at (e := .f32) (A := 1) (B := 512) (a := 1) (b := 128) w ![0, 256] inb_S1x512_S1x128_0_256 (0 : Fin 1) l (0 : Fin 1) (⟨256 + l.val, by have := l.isLt; omega⟩ : Fin 512) (by simp) (by simp)
  have w4 : ∀ l : Fin 128, View.ld (Val := Elt Ideal) (e' := .f32) w (Rect.unit (s := S1x512) ![0, 384] S1x128.size inb_S1x512_S1x128_0_384) (ix2 (0 : Fin 1) l)
      = w (ix2 (0 : Fin 1) (⟨384 + l.val, by have := l.isLt; omega⟩ : Fin 512)) := fun l => ld_at (e := .f32) (A := 1) (B := 512) (a := 1) (b := 128) w ![0, 384] inb_S1x512_S1x128_0_384 (0 : Fin 1) l (0 : Fin 1) (⟨384 + l.val, by have := l.isLt; omega⟩ : Fin 512) (by simp) (by simp)
  simp only [e1, e2, e3, e4, a1, a2, a3, a4, w1, w2, w3, w4]

/-- Every piece of the first `n` trips agrees with the accumulator function. -/
theorem pb_agree (h12 : arg12.view.read (Elt Ideal) X12 = bm) (h13 : arg13.view.read (Elt Ideal) X13 = a) (h7 : arg7.view.read (Elt Ideal) X7 = w) :
    ∀ n : Nat, n ≤ k0_t1_loop.trips → ∀ p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 X7 X12 X13 n,
      ∀ x : p.1.shape.Idx, p.2 x = (fun y : S128x128.Idx => accF bm a w (y 0) (y 1)) (p.1.emb x)
  | 0, _ => fun p hp => absurd hp List.not_mem_nil
  | n + 1, hn => fun p hp => by
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 X7 X12 X13 (⟨n, hn⟩ : Fin k0_t1_loop.trips)
    rw [show (⟨n, hn⟩ : Fin k0_t1_loop.trips).val + 1 = n + 1 from rfl] at e
    rw [e, List.mem_append] at hp
    rcases hp with hp | hp
    · exact trip_agree c i arg2 harg2 arg3 harg3 arg4 harg4 arg5 harg5 arg6 harg6 arg7 harg7 arg8 harg8 arg9 harg9 arg10 harg10 arg11 harg11 arg12 harg12 arg13 harg13 arg14 harg14 X7 X12 X13 bm a w h12 h13 h7 ⟨n, hn⟩ p hp
    · exact pb_agree h12 h13 h7 n (Nat.le_of_succ_le hn) p hp

/-- The accumulator read back after the loop is the accumulator function, whatever the scratch held before. -/
theorem acc_value (h12 : arg12.view.read (Elt Ideal) X12 = bm) (h13 : arg13.view.read (Elt Ideal) X13 = a) (h7 : arg7.view.read (Elt Ideal) X7 = w)
    (s2 : BufTy.Contents (Elt Ideal) arg14.view.ty) :
    arg14.view.read (Elt Ideal) (arg14.view.writes (Elt Ideal) s2
      (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 X7 X12 X13 (Scf.trips k0_t1_loop.lb k0_t1_loop.ub k0_t1_loop.st)))
      = fun y : S128x128.Idx => accF bm a w (y 0) (y 1) :=
  funext fun y => View.read_writes_apply_of_pieces arg14.view s2 (fun y : S128x128.Idx => accF bm a w (y 0) (y 1)) _
    (pb_agree c i arg2 harg2 arg3 harg3 arg4 harg4 arg5 harg5 arg6 harg6 arg7 harg7 arg8 harg8 arg9 harg9 arg10 harg10 arg11 harg11 arg12 harg12 arg13 harg13 arg14 harg14 X7 X12 X13 bm a w h12 h13 h7 _ (Nat.le_refl _)) y
    (cover_acc (F := Ideal) c i arg2 harg2 arg3 harg3 arg4 harg4 arg5 harg5 arg6 harg6 arg7 harg7 arg8 harg8 arg9 harg9 arg10 harg10 arg11 harg11 arg12 harg12 arg13 harg13 arg14 harg14 X7 X12 X13 y)

end Cert.KernelIdeal.Hand
end
-- ==== Proof.Pay.Loss.lean ====
/-
  The probability and the loss of the kernel body, read at an index on the extended reals.

  The probability at (r, c) is the logistic of the logit there plus the one entry of the bias. The loss clips it to
  [lo, hi], compares the row's label with the column's, and is the binary cross-entropy
  -(t * log p + (1 - t) * log (1 + (-p))) with the target t equal to 1 when the two labels agree and 0 otherwise.
  The body writes a negation as a subtraction from the zero word, which is the extended real 0, and the target as
  the one-bit comparison widened to 32 bits and read as a signed integer.
-/
import proofs.«181829_j51367808860812_2_alg».proof.Proof.Gen.KernelIdeal.Skeleton
import proofs.«181829_j51367808860812_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-- The probability's payload at (r, c). -/
theorem pay6 (v23 : Vec Ideal S128x128 .f32) (v24 : Vec Ideal S1x1 .f32) (r c : Fin 128) :
    k0_pay6 (F := Ideal) v23 v24 (ix2 r c) = Ideal.logistic (v23 (ix2 r c) + v24 (ix2 (0 : Fin 1) (0 : Fin 1))) := by
  unfold k0_pay6
  have e : (fun a => (⟨(![0, 0] : Fin 2 → Nat) a, inpos_S1x1_p0_0 a⟩ : S1x1.Coord a)) = ix2 (0 : Fin 1) (0 : Fin 1) :=
    funext fun a => by
      match a with
      | ⟨0, _⟩ => rfl
      | ⟨1, _⟩ => rfl
  exact congrArg (fun z => Ideal.logistic (v23 (ix2 r c) + v24 z)) e

/-- A one-bit comparison of two words, widened without sign to 32 bits and read as a signed integer, is 1 when the
    words are equal and 0 otherwise. -/
theorem target_eq (a b : BitVec 32) :
    (((BitVec.setWidth 32 (IntOp.cmpi .eq a b)).toInt : ℝ) : EReal) = if a = b then 1 else 0 := by
  by_cases h : a = b
  · subst h
    rw [if_pos rfl]
    have : IntOp.cmpi .eq a a = 1#1 := IntOp.cmpi_eq.2 rfl
    rw [this]
    norm_num
  · rw [if_neg h]
    have : IntOp.cmpi .eq a b = 0#1 := eq_zero_of_ne_one (fun h1 => h (IntOp.cmpi_eq.1 h1))
    rw [this]
    norm_num

/-- A column of labels broadcast along the rows reads, at (r, c), the row's label. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The loss's payload at (r, c), for any two clip bounds. -/
theorem pay1 (v28 : FVec Ideal S128x128 .f32) (lo hi : Ideal .f32) (v33 : Vec Ideal S128x1 .i32) (v35 : Vec Ideal S1x128 .i32)
    (r c : Fin 128) :
    k0_pay1 (F := Ideal) v28 lo hi v33 v35 (ix2 r c)
      = -((if v33 (ix2 r (0 : Fin 1)) = v35 (ix2 (0 : Fin 1) c) then (1 : EReal) else 0)
            * Ideal.log (min hi (max lo (v28 (ix2 r c))))
          + (Cert.Spec.oneW - (if v33 (ix2 r (0 : Fin 1)) = v35 (ix2 (0 : Fin 1) c) then (1 : EReal) else 0))
            * Ideal.log1p (-(min hi (max lo (v28 (ix2 r c)))))) := by
  unfold k0_pay1
  rw [shapeCast_self, shapeCast_self]
  have hT : (((BitVec.setWidth 32 (IntOp.cmpi .eq
        (broadcastTo S128x128 v33 broadcasts_S128x1_S128x128 (ix2 r c))
        (broadcastTo S128x128 v35 broadcasts_S1x128_S128x128 (ix2 r c)))).toInt : ℝ) : EReal)
      = if v33 (ix2 r (0 : Fin 1)) = v35 (ix2 (0 : Fin 1) c) then (1 : EReal) else 0 := by
    rw [broadcastTo_a1_ab_apply v33 broadcasts_S128x1_S128x128 r c,
      broadcastTo_1b_ab_apply v35 broadcasts_S1x128_S128x128 r c]
    exact target_eq _ _
  have hz : ∀ x : EReal, Cert.Spec.zeroW - x = -x := fun x => by
    show Ideal.ofBits .f32 0x00000000#32 - x = -x
    rw [Ideal.ofBits_zero_f32, zero_sub]
  refine (hz _).trans (congrArg (fun z : EReal => -z) ?_)
  refine congrArg₂ (fun p q : EReal => p + q)
    (congrArg (fun t : EReal => t * Ideal.log (min hi (max lo (v28 (ix2 r c))))) hT) ?_
  exact congrArg₂ (fun p q : EReal => p * q) (congrArg (fun t : EReal => Cert.Spec.oneW - t) hT)
    (congrArg Ideal.log1p (hz _))

end Cert.KernelIdeal.Pay

end
-- ==== Proof.KI.Out.lean ====
/-
  The output block, read at an index.

  The body stores the row projection  bm = x0 · x3  and the column projection  a = x1 · x2 + bias  whole into their
  scratches before the loop, so the loop's loads read them back; after the loop the accumulator is `accF bm a w`; the
  epilogue adds the second bias, applies the logistic, clips, compares the row's label with the column's, and stores the
  cross-entropy. So the output block at row `r`, column `q` is `lossBlk` of the nine input blocks.
-/
import proofs.«181829_j51367808860812_2_alg».proof.Proof.KI.Acc
import proofs.«181829_j51367808860812_2_alg».proof.Proof.Pay.Loss

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open Cert.KernelIdeal.Pay

theorem hz2 : (![0, 0] : Fin 2 → Nat) = fun _ => 0 := Cert.Lib.zero2

/-- A load of a whole buffer reads its contents. -/
theorem readAt_whole {S : Shape} {e : EltTy} (a : Memref sig .tc .vmem S e) (ha : a.IsWhole) (x : S.Idx → Elt Ideal e)
    {off : Fin S.rank → Nat} (hz : off = fun _ => 0) (inb : ∀ d, off d + S.size d ≤ S.size d) :
    View.readAt (Elt Ideal) a.view (Rect.unit off S.size inb).toLoadRect (ha.unread x) = x :=
  Cert.Lib.readAt_whole a ha x hz inb

variable (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1 .i32) (harg8 : arg8.IsWhole) (arg9 : Memref sig .tc .vmem S1x128 .i32) (harg9 : arg9.IsWhole) (arg10 : Memref sig .tc .vmem S1x1 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x128 .f32) (harg14 : arg14.IsWhole)
  (x0 : Vec Ideal S128x512 .f32) (x1 : Vec Ideal S128x512 .f32) (x2 : Vec Ideal S512x512 .f32) (x3 : Vec Ideal S512x512 .f32) (x4 : Vec Ideal S1x512 .f32) (x5 : Vec Ideal S1x512 .f32) (x6 : Vec Ideal S128x1 .i32) (x7 : Vec Ideal S1x128 .i32) (x8 : Vec Ideal S1x1 .f32)

/-- The row projection's scratch, read back. -/
theorem scratch_bm : arg12.view.read (Elt Ideal) (arg12.view.writes (Elt Ideal) arg12.view.junk (kernelRun.sl.Hs0_1 (F := Ideal) c arg2 harg2 arg5 harg5 x0 x3))
    = k0_pay4 (F := Ideal) x0 x3 := by
  unfold kernelRun.sl.Hs0_1
  rw [View.read_writes_eq_canon _ _ _ (fun y => ⟨_, List.mem_singleton_self _, View.mem_set_unit_zero hz2 inb_S128x512_S128x512_0_0 y⟩), View.canon_unit_zero hz2,
    readAt_whole arg2 harg2 x0 hz2, readAt_whole arg5 harg5 x3 hz2]

/-- The column projection's scratch, read back. -/
theorem scratch_a : arg13.view.read (Elt Ideal) (arg13.view.writes (Elt Ideal) arg13.view.junk (kernelRun.sl.Hs1_1 (F := Ideal) c arg3 harg3 arg4 harg4 arg6 harg6 x1 x2 x4))
    = k0_pay3 (F := Ideal) x1 x2 x4 := by
  unfold kernelRun.sl.Hs1_1
  rw [View.read_writes_eq_canon _ _ _ (fun y => ⟨_, List.mem_singleton_self _, View.mem_set_unit_zero hz2 inb_S128x512_S128x512_0_0 y⟩), View.canon_unit_zero hz2,
    readAt_whole arg3 harg3 x1 hz2, readAt_whole arg4 harg4 x2 hz2, readAt_whole arg6 harg6 x4 hz2]

/-- The output block's entry at row `r`, column `q`, as a formula of the input blocks. -/
def lossBlk (x0 : Vec Ideal S128x512 .f32) (x1 : Vec Ideal S128x512 .f32) (x2 : Vec Ideal S512x512 .f32) (x3 : Vec Ideal S512x512 .f32) (x4 : Vec Ideal S1x512 .f32) (x5 : Vec Ideal S1x512 .f32) (x6 : Vec Ideal S128x1 .i32) (x7 : Vec Ideal S1x128 .i32) (x8 : Vec Ideal S1x1 .f32) (r q : Fin 128) : EReal :=
  -((if x6 (ix2 r (0 : Fin 1)) = x7 (ix2 (0 : Fin 1) q) then (1 : EReal) else 0) * Ideal.log (min Cert.Spec.hiW (max Cert.Spec.loW (Ideal.logistic (accF (k0_pay4 (F := Ideal) x0 x3) (k0_pay3 (F := Ideal) x1 x2 x4) x5 r q + x8 (ix2 (0 : Fin 1) (0 : Fin 1))))))
    + (Cert.Spec.oneW - (if x6 (ix2 r (0 : Fin 1)) = x7 (ix2 (0 : Fin 1) q) then (1 : EReal) else 0)) * Ideal.log1p (-(min Cert.Spec.hiW (max Cert.Spec.loW (Ideal.logistic (accF (k0_pay4 (F := Ideal) x0 x3) (k0_pay3 (F := Ideal) x1 x2 x4) x5 r q + x8 (ix2 (0 : Fin 1) (0 : Fin 1))))))))

theorem outBlk_at (r q : Fin 128) :
    outBlk (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix2 r q) = lossBlk x0 x1 x2 x3 x4 x5 x6 x7 x8 r q := by
  unfold outBlk
  rw [View.read_writes_eq_canon _ _ _ (cover_out (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 _ _ _)]
  unfold kernelRun
  dsimp only
  rw [View.canon_unit_zero hz2, pay1]
  unfold kernelRun.sl.r
  rw [pay6]
  unfold kernelRun.sl.v23
  simp only [View.readAt_eq_ld, View.ld_unit_zero (S := S128x128) hz2, View.ld_unit_zero (S := S1x1) hz2,
    View.ld_unit_zero (S := S128x1) hz2, View.ld_unit_zero (S := S1x128) hz2, harg8.read_unread, harg9.read_unread, harg10.read_unread]
  rw [acc_value c i arg2 harg2 arg3 harg3 arg4 harg4 arg5 harg5 arg6 harg6 arg7 harg7 arg8 harg8 arg9 harg9 arg10 harg10 arg11 harg11 arg12 harg12 arg13 harg13 arg14 harg14 _ _ _ (k0_pay4 (F := Ideal) x0 x3) (k0_pay3 (F := Ideal) x1 x2 x4) x5
      (scratch_bm c arg2 harg2 arg5 harg5 arg12 x0 x3) (scratch_a c arg3 harg3 arg4 harg4 arg6 harg6 arg13 x1 x2 x4) (harg7.read_unread x5) _]
  have l6 := ld_at (e := .i32) (A := 128) (B := 1) (a := 128) (b := 1) x6 ![0, 0] inb_S128x1_S128x1_0_0 r (0 : Fin 1) r (0 : Fin 1) (by simp) (by simp)
  have l7 := ld_at (e := .i32) (A := 1) (B := 128) (a := 1) (b := 128) x7 ![0, 0] inb_S1x128_S1x128_0_0 (0 : Fin 1) q (0 : Fin 1) q (by simp) (by simp)
  have l8 := ld_at (e := .f32) (A := 1) (B := 1) (a := 1) (b := 1) x8 ![0, 0] inb_S1x1_S1x1_0_0 (0 : Fin 1) (0 : Fin 1) (0 : Fin 1) (0 : Fin 1) (by simp) (by simp)
  unfold lossBlk kernelRun.sl.cst_19 kernelRun.sl.cst_20
  first
    | (rw [l6, l7, l8]; rfl)
    | (simp only [l6, l7, l8]; rfl)

end Cert.KernelIdeal.Hand
end
-- ==== Proof.KI.Run.lean ====
/-
  The launch: @main as three segments — the eight host operations before the region, the region, the one reshape
  after it — and the run they give.

  Between segments a core holds its unscoped buffers at a valuation. The region is entered from all of them at what
  the host operations left (`V`): the nine buffers behind the windows' arrays go to the pipeline, the embeddings
  array split in two halves of its share, one for each of the two windows that read it; the other buffers bypass
  the region. At the exit the two halves are joined again, every input array is as it was, and the output window's
  array holds what the pipeline wrote back (`arrAt 9 N`). The last reshape then runs over that array and the
  result; the six arguments, untouched by any host operation, ride along to the end, where they are read back.
-/
import proofs.«181829_j51367808860812_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers, and what the host operations leave alone -/

/-- The TensorCore's unscoped references, as device buffers. -/
def ucRefs : Finset (DevRef τ sig) := (StableHlo.tcRefs τ sig).filter fun b => ¬ b.isScoped

omit [FloatOps F] in
/-- A core's unscoped buffers at a valuation are that set held at it. -/
theorem unscopedBufs_held (c : Dev nD) (W : Valuation τ sig (Elt F)) :
    (unscopedBufs c (fun b => W b) : sProp 𝕄) = StableHlo.held (c : Thread nD τ) ucRefs W := by
  simp only [unscopedBufs, StableHlo.held, ucRefs, StableHlo.tcRefs, Finset.filter_map, bigSep_map]
  rfl

omit [FloatOps F] in
/-- A host operation names TensorCore references only, and no scoped one. -/
theorem sub_ucRefs (op : HloOp τ sig (Elt F)) (h : op.bufs ⊆ StableHlo.tcRefs τ sig) : op.bufs ⊆ ucRefs := fun b hb =>
  Finset.mem_filter.mpr ⟨h hb, fun hs => Bool.false_ne_true ((op.no_scoped b hb).symm.trans hs)⟩

/-- The eight host operations before the region write `main_v0` … `main_v7` and nothing else. -/
theorem V_keeps (c : Dev nD) (b : Ref sig .tc) (hb : b ∉ [main_v0, main_v1, main_v2, main_v3, main_v4, main_v5, main_v6, main_v7]) :
    V m c b = m ((c : Thread nD τ).loc b) :=
  StableHlo.after_of_writes_sub (W := [main_v0, main_v1, main_v2, main_v3, main_v4, main_v5, main_v6, main_v7]) hostOps0 (V₀ m c)
    (by simp [StableHlo.unary_writes, StableHlo.reshape_writes]) hb

/-- The two buffers the reshape after the region touches. -/
def out89 : Finset (DevRef τ sig) := {Proc.devRef .tc main_v8, Proc.devRef .tc main_v9}

/-! ## The region's ends -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is the certificate's. -/
abbrev EP : Emb (UR sig nD τ) (MT nD τ sig Unit (Elt F) ℕ (UR sig nD τ) ℕ) := emb₁
/-- The launch element: the pipeline library's, at the staging cells. -/
def u₀ : UR sig nD τ := initOf (Pipeline.cells cfgs cellOf_inj) (Pipeline.launchToks cfgs cellOf_inj)

/-- What rides beside the buffers: the generator register at some state, the core owing nothing. -/
abbrev R (c : Dev nD) : sProp 𝕄 := iprop((∃ r, prngReg c r) ∗ ∃ W, owes (c : Thread nD τ) (0 : CellTallies nD τ sig Unit) W)

/-- The six argument buffers, as the region found them. -/
abbrev Keep (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5))

/-- The buffers after the region: the output window's array at what the pipeline wrote back, the rest as before. -/
abbrev V₂ (c : Dev nD) : Valuation τ sig (Elt F) :=
  Function.update (StableHlo.after hostOps0 (V₀ m c)) (Proc.devRef .tc main_v8) ((dats m 0 c).arrAt 9 cfg0.N)

/-- The result array at the end. -/
abbrev res (c : Dev nD) : Buf (Elt F) ((c : Thread nD τ).loc main_v9) := StableHlo.after hostOps1 (V₂ m c) (Proc.devRef .tc main_v9)

omit [FloatOps F] in
theorem held_out89 (c : Dev nD) (W : Valuation τ sig (Elt F)) : (StableHlo.held (c : Thread nD τ) out89 W : sProp 𝕄)
    = iprop((((c : Thread nD τ).loc main_v8) ↦{fullShare} W (Proc.devRef .tc main_v8)) ∗ (((c : Thread nD τ).loc main_v9) ↦{fullShare} W (Proc.devRef .tc main_v9))) := by
  unfold StableHlo.held out89
  rw [bigSep_eq_bigSepL_of_eq [Proc.devRef .tc main_v8, Proc.devRef .tc main_v9] (by decide) (by decide)]
  rfl

/-- The buffers behind the windows' arrays, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0) ∗ (((c : Thread nD τ).loc main_v1) ↦{fullShare} W main_v1) ∗ (((c : Thread nD τ).loc main_v2) ↦{fullShare} W main_v2) ∗ (((c : Thread nD τ).loc main_v4) ↦{fullShare} W main_v4) ∗ (((c : Thread nD τ).loc main_v6) ↦{fullShare} W main_v6) ∗ (((c : Thread nD τ).loc main_v7) ↦{fullShare} W main_v7) ∗ (((c : Thread nD τ).loc main_v5) ↦{fullShare} W main_v5) ∗ (((c : Thread nD τ).loc main_v8) ↦{fullShare} W main_v8)) := by
  unfold Pipeline.arrBufs
  rw [bigSep_eq_bigSepL_of_eq [main_arg0, main_v0, main_v1, main_v2, main_v4, main_v6, main_v7, main_v5, main_v8] (by decide) (by decide)]
  rfl

/-- The windows' arrays at the proof data's shares, one by one: the embeddings array twice, at the two halves. -/
theorem arrays_chain (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1) ∗ (((c : Thread nD τ).loc main_v0) ↦{fullShare} Fa 2) ∗ (((c : Thread nD τ).loc main_v1) ↦{fullShare} Fa 3) ∗ (((c : Thread nD τ).loc main_v2) ↦{fullShare} Fa 4) ∗ (((c : Thread nD τ).loc main_v4) ↦{fullShare} Fa 5) ∗ (((c : Thread nD τ).loc main_v6) ↦{fullShare} Fa 6) ∗ (((c : Thread nD τ).loc main_v7) ↦{fullShare} Fa 7) ∗ (((c : Thread nD τ).loc main_v5) ↦{fullShare} Fa 8) ∗ (((c : Thread nD τ).loc main_v8) ↦{fullShare} Fa 9)) := by
  unfold Pipeline.Dat.arrays
  rw [bigSep_W0]
  simp only [Memref.view_whole, View.set_whole]
  rfl

theorem owesAt_of (c : Dev nD) (t : Fin (cfg0.N + 1)) :
    iprop(∃ W, owes (c : Thread nD τ) (0 : CellTallies nD τ sig Unit) W) ⊢ ((dats m 0 c).owesAt () t : sProp 𝕄) := by
  unfold Pipeline.Dat.owesAt Pipeline.owesWithin
  iintro ⟨%W, HO⟩; iexists W; isplitr; · ipureintro; exact fun _ _ => Or.inl trivial
  iexact HO

theorem owesAt_to (c : Dev nD) (t : Fin (cfg0.N + 1)) :
    ((dats m 0 c).owesAt () t : sProp 𝕄) ⊢ iprop(∃ W, owes (c : Thread nD τ) (0 : CellTallies nD τ sig Unit) W) := by
  unfold Pipeline.Dat.owesAt Pipeline.owesWithin
  iintro ⟨%W, -, HO⟩; iexists W; iexact HO

/-! ## The segments -/

/-- The eight host operations, over all the unscoped buffers. -/
def seg0 : Pipeline.HostSeg (Name := ℕ) (U := UR sig nD τ) (pcfgs (F := F)) defs₀ 𝒱₀ L lv :=
  Pipeline.HostSeg.ofOps _ _ _ _ _ ucRefs hostOps0 (fun op h => sub_ucRefs op ((List.forall_iff_forall_mem.mp hostOps0_sub) op h))
    (fun op h => by
      simp only [List.mem_cons, List.mem_nil_iff, or_false] at h
      rcases h with rfl | rfl | rfl | rfl | rfl | rfl | rfl | rfl <;> rfl) (V₀ m) R

/-- The reshape of the output array into the result, over those two buffers; the arguments ride along. -/
def seg1 : Pipeline.HostSeg (Name := ℕ) (U := UR sig nD τ) (pcfgs (F := F)) defs₀ 𝒱₀ L lv :=
  Pipeline.HostSeg.ofOps _ _ _ _ _ out89 hostOps1
    (fun op h => by
      simp only [List.mem_cons, List.mem_nil_iff, or_false] at h
      subst h
      simp only [StableHlo.reshape_bufs, out89]
      decide)
    (fun op h => by
      simp only [List.mem_cons, List.mem_nil_iff, or_false] at h
      subst h; rfl) (V₂ m) (fun c => iprop(Keep m c ∗ R c))

set_option backward.isDefEq.respectTransparency.types false in
set_option maxHeartbeats 1000000 in
/-- The region. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) ucRefs (StableHlo.after hostOps0 (V₀ m c)) ∗ R c)
  post c := iprop(StableHlo.held (c : Thread nD τ) out89 (V₂ m c) ∗ (Keep m c ∗ R c))
  X c := iprop(∃ r, prngReg c r)
  Y c := iprop(∃ r, prngReg c r)
  Z c := iprop((((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_v9) ↦{fullShare} V m c main_v9))
  hentry c := by
    rw [show StableHlo.held (c : Thread nD τ) ucRefs (StableHlo.after hostOps0 (V₀ m c)) = unscopedBufs c (V m c) from (unscopedBufs_held c _).symm,
      Pipeline.ownSems0_none, Pipeline.unscopedBufs_split₀ cfgs (0 : Fin 1) winFacts₀0.arr_unscoped c (V m c),
      arrBufs_chain, unscopedRest0_eq, arrays_chain]
    iintro ⟨⟨⟨⟨Ha0, Hv0, Hv1, Hv2, Hv4, Hv6, Hv7, Hv5, Hv8⟩, ⟨Ha1, Ha2, Ha3, Ha4, Ha5, -, Hv9⟩⟩, ⟨Hg, HO⟩⟩, -, -⟩
    ihave Hh := (pointsTo_share (PosShare.mem_left_op_right fullShare)).1 $$ Ha0
    icases Hh with ⟨Hl, Hr⟩
    imodintro
    isplitl [Hl Hr Hv0 Hv1 Hv2 Hv4 Hv6 Hv7 Hv5 Hv8]
    · isplitl [Hl]; · iexact Hl
      isplitl [Hr]; · iexact Hr
      isplitl [Hv0]; · iexact Hv0
      isplitl [Hv1]; · iexact Hv1
      isplitl [Hv2]; · iexact Hv2
      isplitl [Hv4]; · iexact Hv4
      isplitl [Hv6]; · iexact Hv6
      isplitl [Hv7]; · iexact Hv7
      isplitl [Hv5]; · iexact Hv5
      iexact Hv8
    isplitr; · unfold Pipeline.prefHeld; rw [show (Finset.univ : Finset (Fin 0)) = ∅ from rfl, BI.bigSep_empty]; iempintro
    isplitl [HO]; · iapply (owesAt_of m c 0); iexact HO
    isplitl [Hg]; · iexact Hg
    isplitl [Ha1]; · iexact Ha1
    isplitl [Ha2]; · iexact Ha2
    isplitl [Ha3]; · iexact Ha3
    isplitl [Ha4]; · iexact Ha4
    isplitl [Ha5]; · iexact Ha5
    iexact Hv9
  hin c := by
    rw [show (dats m 0 c).Φ 0 = Pipeline.ΦA spec0 c from rfl]; unfold Pipeline.ΦA
    iintro ⟨Hg, -, Hr⟩
    isplitl [Hr]; · iexact Hr
    iexact Hg
  hout c := by
    rw [Pipeline.ownSems0_none, show (dats m 0 c).Φ (Fin.last cfg0.N) = Pipeline.ΦA spec0 c from rfl]; unfold Pipeline.ΦA
    iintro ⟨Hr, Hg⟩
    isplitl [Hg]; · iexact Hg
    isplitr; · iempintro
    iexact Hr
  hexit c := by
    rw [arrays_chain, held_out89]
    rw [(dats m 0 c).arrAt_in 0 rfl, (dats m 0 c).arrAt_in 1 rfl]
    iintro ⟨⟨Hl, Hr, -, -, -, -, -, -, -, Hv8⟩, HO, Hg, ⟨Ha1, Ha2, Ha3, Ha4, Ha5, Hv9⟩⟩
    ihave Ha0 := (pointsTo_share (PosShare.mem_left_op_right fullShare)).2 $$ [Hl Hr]
    · isplitl [Hl]; · iexact Hl
      iexact Hr
    imodintro
    isplitl [Hv8 Hv9]
    · isplitl [Hv8]
      · rw [show V₂ m c (Proc.devRef .tc main_v8) = (dats m 0 c).arrAt 9 cfg0.N from Function.update_self ..]; iexact Hv8
      · rw [show V₂ m c (Proc.devRef .tc main_v9) = V m c main_v9 from Function.update_of_ne (by decide) ..]; iexact Hv9
    isplitl [Ha0 Ha1 Ha2 Ha3 Ha4 Ha5]
    · isplitl [Ha0]; · iexact Ha0
      isplitl [Ha1]; · iexact Ha1
      isplitl [Ha2]; · iexact Ha2
      isplitl [Ha3]; · iexact Ha3
      isplitl [Ha4]; · iexact Ha4
      iexact Ha5
    isplitl [Hg]; · iexact Hg
    iapply (owesAt_to m c _); iexact HO

/-- @main as the list of the three. -/
abbrev segs : List (Pipeline.Seg (pcfgs (F := F)) adm (dats m) () defs₀ 𝒱₀ L lv) := [.host (seg0 m), .region (reg0 m), .host (seg1 m)]

/-- What a core holds at the end: the result and the output array, the six arguments, the generator register. -/
abbrev Tₙ (c : Dev nD) : sProp 𝕄 :=
  iprop(StableHlo.held (c : Thread nD τ) out89 (StableHlo.after hostOps1 (V₂ m c)) ∗ Keep m c ∗ ∃ r, prngReg c r)

/-- What the run ends with: the result array at `res`, the six arguments as launched. -/
def QR : PUnit × MemSt nD τ sig (Elt F) → Prop := fun r => ∀ c : Dev nD,
  r.2.mem ((c : Thread nD τ).loc main_v9) = res m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)

set_option backward.isDefEq.respectTransparency.types false in
set_option maxHeartbeats 1000000 in
/-- At the compiled mesh, from any memory with zero counters: every weakly fair execution of @main on the TensorCores
    terminates, nothing faulting, the result array ends at `res` and the six arguments end as they were. -/
theorem run_main : θ_run defs (onTc (τ := τ) (main (F := F))) (s₀ m ρ) (QR m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl, fun c => by
      refine (show iprop(StableHlo.held (c : Thread nD τ) out89 (StableHlo.after hostOps1 (V₂ m c)) ∗ (Keep m c ∗ R c))
        ⊢ iprop(Tₙ m c ∗ ∃ W, owes (c : Thread nD τ) (0 : CellTallies nD τ sig Unit) W) from ?_)
      iintro ⟨Hh, HK, Hg, HO⟩
      isplitr [HO]
      · isplitl [Hh]; · iexact Hh
        isplitl [HK] <;> iassumption
      · iexact HO⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, Hg, -⟩, -⟩
      imodintro
      isplitl [Hh]; · iexact Hh
      isplitl [Hg]; · iexists _; iexact Hg
      iexists ∅; iexact HO)
    (QY := fun c s => s.mem ((c : Thread nD τ).loc main_v9) = res m c
      ∧ s.mem ((c : Thread nD τ).loc main_arg0) = V m c main_arg0
      ∧ s.mem ((c : Thread nD τ).loc main_arg1) = V m c main_arg1
      ∧ s.mem ((c : Thread nD τ).loc main_arg2) = V m c main_arg2
      ∧ s.mem ((c : Thread nD τ).loc main_arg3) = V m c main_arg3
      ∧ s.mem ((c : Thread nD τ).loc main_arg4) = V m c main_arg4
      ∧ s.mem ((c : Thread nD τ).loc main_arg5) = V m c main_arg5)
    (hfin := fun c s' => by
      dsimp only [Tₙ]; rw [held_out89]
      iintro ⟨⟨⟨-, H9⟩, ⟨K0, K1, K2, K3, K4, K5⟩, -⟩, HSI⟩
      icombine HSI H9 gives %h9
      icombine HSI K0 gives %h0
      icombine HSI K1 gives %h1
      icombine HSI K2 gives %h2
      icombine HSI K3 gives %h3
      icombine HSI K4 gives %h4
      icombine HSI K5 gives %h5
      imodintro
      isplitr; · ipureintro; exact ⟨Buf.eq_of_forall_mem_univ h9, Buf.eq_of_forall_mem_univ h0, Buf.eq_of_forall_mem_univ h1, Buf.eq_of_forall_mem_univ h2, Buf.eq_of_forall_mem_univ h3, Buf.eq_of_forall_mem_univ h4, Buf.eq_of_forall_mem_univ h5⟩
      iexact HSI)
    (hQ := fun s h c => by
      obtain ⟨h9, h0, h1, h2, h3, h4, h5⟩ := h c
      exact ⟨h9, h0.trans (V_keeps m c _ (by decide)), h1.trans (V_keeps m c _ (by decide)), h2.trans (V_keeps m c _ (by decide)),
        h3.trans (V_keeps m c _ (by decide)), h4.trans (V_keeps m c _ (by decide)), h5.trans (V_keeps m c _ (by decide))⟩)

end Cert.KernelIdeal.Hand
end
-- ==== Proof.KI.Inputs.lean ====
/-
  The nine input blocks at a grid point, read at an index, in terms of the six argument arrays.

  Before the region the host slices the first-layer weights into their two halves, and reshapes the first bias, the
  second-layer weights, the second bias and the labels (once as a column, once as a row). At grid point `t`, with block
  coordinates (i, j) = the output window's block index, the pipeline stages rows 128·i … of the embeddings for the first
  window and rows 128·j … for the second, the same rows of the label column and the same columns of the label row,
  and everything else whole.
-/
import proofs.«181829_j51367808860812_2_alg».proof.Proof.KI.Run
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-! ## The host operations' results -/

/-- The first half of the first-layer weights. -/
theorem V_v0 (c : Dev nD) (d h : Fin 512) :
    V m c main_v0 (ix2 d h) = m ((c : Thread nD τ).loc main_arg2) (ix2 (Fin.castAdd 512 d : Fin (512 + 512)) h) := by
  have e : (V m c main_v0 : S512x512.Idx → Elt F .f32)
      = extractStridedSlice S512x512 ![0, 0] (m ((c : Thread nD τ).loc main_arg2)) slices_S1024x512_S512x512_0_0 := by
    dsimp only [V]; after_results
  rw [e]
  exact extractStridedSlice_apply _ _ _ _ _ fun a => match a with
    | ⟨0, _⟩ => by simp
    | ⟨1, _⟩ => by simp

/-- The second half. -/
theorem V_v1 (c : Dev nD) (d h : Fin 512) :
    V m c main_v1 (ix2 d h) = m ((c : Thread nD τ).loc main_arg2) (ix2 (Fin.natAdd 512 d : Fin (512 + 512)) h) := by
  have e : (V m c main_v1 : S512x512.Idx → Elt F .f32)
      = extractStridedSlice S512x512 ![512, 0] (m ((c : Thread nD τ).loc main_arg2)) slices_S1024x512_S512x512_512_0 := by
    dsimp only [V]; after_results
  rw [e]
  exact extractStridedSlice_apply _ _ _ _ _ fun a => match a with
    | ⟨0, _⟩ => by show ((Fin.natAdd 512 d : Fin (512 + 512)) : Nat) = 512 + (d : Nat); exact Fin.coe_natAdd 512 d
    | ⟨1, _⟩ => by simp

/-- The first bias as a row. -/
theorem V_v2 (c : Dev nD) (h : Fin 512) : V m c main_v2 (ix2 (0 : Fin 1) h) = m ((c : Thread nD τ).loc main_arg3) (ix1 h) := by
  have e : (V m c main_v2 : S1x512.Idx → Elt F .f32) = shapeCast S1x512 (m ((c : Thread nD τ).loc main_arg3)) shapeCasts_S512_S1x512 := by
    dsimp only [V]; after_results; rfl
  rw [e]
  exact shapeCast_a_1a_apply _ _ _ _

/-- The second-layer weights as a row. -/
theorem V_v4 (c : Dev nD) (h : Fin 512) : V m c main_v4 (ix2 (0 : Fin 1) h) = m ((c : Thread nD τ).loc main_arg4) (ix2 h (0 : Fin 1)) := by
  have e : (V m c main_v4 : S1x512.Idx → Elt F .f32)
      = shapeCast S1x512 (shapeCast S512 (m ((c : Thread nD τ).loc main_arg4)) shapeCasts_S512x1_S512) shapeCasts_S512_S1x512 := by
    dsimp only [V]; after_results; rfl
  rw [e, shapeCast_a_1a_apply]
  refine shapeCast_apply (s := S512x1) (t := S512) _ _ _ _ ?_
  show ((S512x1 : Shape).rowMajor (ix2 h (0 : Fin 1))).val = ((S512 : Shape).rowMajor (ix1 h)).val
  rw [Shape.rowMajor_val_two, Shape.rowMajor_val_one]
  show h.val * 1 + 0 = h.val
  omega

/-- The second bias as a 1 × 1 array. -/
theorem V_v5 (c : Dev nD) : V m c main_v5 (ix2 (0 : Fin 1) (0 : Fin 1)) = m ((c : Thread nD τ).loc main_arg5) (ix1 (0 : Fin 1)) := by
  have e : (V m c main_v5 : S1x1.Idx → Elt F .f32) = shapeCast S1x1 (m ((c : Thread nD τ).loc main_arg5)) shapeCasts_S1_S1x1 := by
    dsimp only [V]; after_results; rfl
  rw [e]
  exact shapeCast_a_1a_apply _ _ _ _

/-- The labels as a column. -/
theorem V_v6 (c : Dev nD) (r : Fin 256) : V m c main_v6 (ix2 r (0 : Fin 1)) = m ((c : Thread nD τ).loc main_arg1) (ix1 r) := by
  have e : (V m c main_v6 : S256x1.Idx → Elt F .i32) = shapeCast S256x1 (m ((c : Thread nD τ).loc main_arg1)) shapeCasts_S256_S256x1 := by
    dsimp only [V]; after_results; rfl
  rw [e]
  refine shapeCast_apply (s := S256) (t := S256x1) _ _ _ _ ?_
  show ((S256 : Shape).rowMajor (ix1 r)).val = ((S256x1 : Shape).rowMajor (ix2 r (0 : Fin 1))).val
  rw [Shape.rowMajor_val_two, Shape.rowMajor_val_one]
  show r.val = r.val * 1 + 0
  omega

/-- The labels as a row. -/
theorem V_v7 (c : Dev nD) (q : Fin 256) : V m c main_v7 (ix2 (0 : Fin 1) q) = m ((c : Thread nD τ).loc main_arg1) (ix1 q) := by
  have e : (V m c main_v7 : S1x256.Idx → Elt F .i32) = shapeCast S1x256 (m ((c : Thread nD τ).loc main_arg1)) shapeCasts_S256_S1x256 := by
    dsimp only [V]; after_results; rfl
  rw [e]
  exact shapeCast_a_1a_apply _ _ _ _

/-- The embeddings reach the region as launched. -/
theorem V_a0 (c : Dev nD) : V m c main_arg0 = m ((c : Thread nD τ).loc main_arg0) := V_keeps m c _ (by decide)

/-! ## The grid's block indices -/

/-- The printed index maps, decided over the grid's four points: the first window and the label column move with the
    output's row block, the second window and the label row with its column block, everything else stays. -/
theorem idx_facts : ∀ t : Fin cfg0.N,
    win0_0.index t (0 : Fin 2) = win0_9.index t (0 : Fin 2) ∧ win0_0.index t (1 : Fin 2) = 0
    ∧ win0_1.index t (0 : Fin 2) = win0_9.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = win0_9.index t (0 : Fin 2) ∧ win0_6.index t (1 : Fin 2) = 0
    ∧ win0_7.index t (0 : Fin 2) = 0 ∧ win0_7.index t (1 : Fin 2) = win0_9.index t (1 : Fin 2)
    ∧ win0_8.index t (0 : Fin 2) = 0 ∧ win0_8.index t (1 : Fin 2) = 0
    ∧ win0_9.index t (0 : Fin 2) ≤ 1 ∧ win0_9.index t (1 : Fin 2) ≤ 1 :=
  (by decide +kernel : ∀ t : Fin grid0.N, _)

/-- Every block of the output array is some point's. -/
theorem idx_onto : ∀ (q0 q1 : Fin 2), ∃ t : Fin cfg0.N, win0_9.index t = ![q0.val, q1.val] :=
  (by decide +kernel : ∀ (q0 q1 : Fin 2), ∃ t : Fin grid0.N, win0_9.index t = ![q0.val, q1.val])

/-- The array row of the block row `r` at point `t`, and the array column of the block column `q`. -/
def rowOf (t : Fin cfg0.N) (r : Fin 128) : Fin 256 :=
  ⟨win0_9.index t (0 : Fin 2) * 128 + r.val, by have := (idx_facts t).2.2.2.2.2.2.2.2.2.2.2.2.2.2.2.2.2.2.1; have := r.isLt; omega⟩
def colOf (t : Fin cfg0.N) (q : Fin 128) : Fin 256 :=
  ⟨win0_9.index t (1 : Fin 2) * 128 + q.val, by have := (idx_facts t).2.2.2.2.2.2.2.2.2.2.2.2.2.2.2.2.2.2.2; have := q.isLt; omega⟩

/-! ## The input blocks -/

/-- The first window's block: the embeddings of the output block's rows. -/
theorem blk0 (c : Dev nD) (t : Fin cfg0.N) (r : Fin 128) (d : Fin 512) :
    iblk m c 0 t (ix2 r d) = m ((c : Thread nD τ).loc main_arg0) (ix2 (rowOf t r) d) := by
  show V m c main_arg0 (((cfg0.win 0).blk t).view.emb (ix2 r d)) = _
  rw [V_a0]
  congr 1
  obtain ⟨e0, e1, -⟩ := idx_facts t
  funext a; apply Fin.ext
  match a with
  | ⟨0, _⟩ => show win0_0.index t (0 : Fin 2) * 128 + 1 * r.val = win0_9.index t (0 : Fin 2) * 128 + r.val; omega
  | ⟨1, _⟩ => show win0_0.index t (1 : Fin 2) * 512 + 1 * d.val = d.val; omega

/-- The second window's block: the embeddings of the output block's columns. -/
theorem blk1 (c : Dev nD) (t : Fin cfg0.N) (q : Fin 128) (d : Fin 512) :
    iblk m c 1 t (ix2 q d) = m ((c : Thread nD τ).loc main_arg0) (ix2 (colOf t q) d) := by
  show V m c main_arg0 (((cfg0.win 1).blk t).view.emb (ix2 q d)) = _
  rw [V_a0]
  congr 1
  obtain ⟨-, -, e0, e1, -⟩ := idx_facts t
  funext a; apply Fin.ext
  match a with
  | ⟨0, _⟩ => show win0_1.index t (0 : Fin 2) * 128 + 1 * q.val = win0_9.index t (1 : Fin 2) * 128 + q.val; omega
  | ⟨1, _⟩ => show win0_1.index t (1 : Fin 2) * 512 + 1 * d.val = d.val; omega

/-- The third and fourth windows: the two halves of the first-layer weights, whole. -/
theorem blk2 (c : Dev nD) (t : Fin cfg0.N) (d h : Fin 512) :
    iblk m c 2 t (ix2 d h) = m ((c : Thread nD τ).loc main_arg2) (ix2 (Fin.castAdd 512 d : Fin (512 + 512)) h) := by
  refine Eq.trans ?_ (V_v0 m c d h)
  show V m c main_v0 (((cfg0.win 2).blk t).view.emb (ix2 d h)) = _
  congr 1
  obtain ⟨-, -, -, -, e0, e1, -⟩ := idx_facts t
  funext a; apply Fin.ext
  match a with
  | ⟨0, _⟩ => show win0_2.index t (0 : Fin 2) * 512 + 1 * d.val = d.val; omega
  | ⟨1, _⟩ => show win0_2.index t (1 : Fin 2) * 512 + 1 * h.val = h.val; omega

theorem blk3 (c : Dev nD) (t : Fin cfg0.N) (d h : Fin 512) :
    iblk m c 3 t (ix2 d h) = m ((c : Thread nD τ).loc main_arg2) (ix2 (Fin.natAdd 512 d : Fin (512 + 512)) h) := by
  refine Eq.trans ?_ (V_v1 m c d h)
  show V m c main_v1 (((cfg0.win 3).blk t).view.emb (ix2 d h)) = _
  congr 1
  obtain ⟨-, -, -, -, -, -, e0, e1, -⟩ := idx_facts t
  funext a; apply Fin.ext
  match a with
  | ⟨0, _⟩ => show win0_3.index t (0 : Fin 2) * 512 + 1 * d.val = d.val; omega
  | ⟨1, _⟩ => show win0_3.index t (1 : Fin 2) * 512 + 1 * h.val = h.val; omega

/-- The fifth and sixth windows: the first bias and the second-layer weights, as rows. -/
theorem blk4 (c : Dev nD) (t : Fin cfg0.N) (h : Fin 512) :
    iblk m c 4 t (ix2 (0 : Fin 1) h) = m ((c : Thread nD τ).loc main_arg3) (ix1 h) := by
  refine Eq.trans ?_ (V_v2 m c h)
  show V m c main_v2 (((cfg0.win 4).blk t).view.emb (ix2 (0 : Fin 1) h)) = _
  congr 1
  obtain ⟨-, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 512 + 1 * h.val = h.val; omega

theorem blk5 (c : Dev nD) (t : Fin cfg0.N) (h : Fin 512) :
    iblk m c 5 t (ix2 (0 : Fin 1) h) = m ((c : Thread nD τ).loc main_arg4) (ix2 h (0 : Fin 1)) := by
  refine Eq.trans ?_ (V_v4 m c h)
  show V m c main_v4 (((cfg0.win 5).blk t).view.emb (ix2 (0 : Fin 1) h)) = _
  congr 1
  obtain ⟨-, -, -, -, -, -, -, -, -, -, e0, e1, -⟩ := idx_facts t
  funext a; apply Fin.ext
  match a with
  | ⟨0, _⟩ => show win0_5.index t (0 : Fin 2) * 1 + 1 * 0 = 0; omega
  | ⟨1, _⟩ => show win0_5.index t (1 : Fin 2) * 512 + 1 * h.val = h.val; omega

/-- The seventh and eighth windows: the labels of the output block's rows, as a column, and of its columns, as a row. -/
theorem blk6 (c : Dev nD) (t : Fin cfg0.N) (r : Fin 128) :
    iblk m c 6 t (ix2 r (0 : Fin 1)) = m ((c : Thread nD τ).loc main_arg1) (ix1 (rowOf t r)) := by
  refine Eq.trans ?_ (V_v6 m c (rowOf t r))
  show V m c main_v6 (((cfg0.win 6).blk t).view.emb (ix2 r (0 : Fin 1))) = _
  congr 1
  obtain ⟨-, -, -, -, -, -, -, -, -, -, -, -, e0, e1, -⟩ := idx_facts t
  funext a; apply Fin.ext
  match a with
  | ⟨0, _⟩ => show win0_6.index t (0 : Fin 2) * 128 + 1 * r.val = win0_9.index t (0 : Fin 2) * 128 + r.val; omega
  | ⟨1, _⟩ => show win0_6.index t (1 : Fin 2) * 1 + 1 * 0 = 0; omega

theorem blk7 (c : Dev nD) (t : Fin cfg0.N) (q : Fin 128) :
    iblk m c 7 t (ix2 (0 : Fin 1) q) = m ((c : Thread nD τ).loc main_arg1) (ix1 (colOf t q)) := by
  refine Eq.trans ?_ (V_v7 m c (colOf t q))
  show V m c main_v7 (((cfg0.win 7).blk t).view.emb (ix2 (0 : Fin 1) q)) = _
  congr 1
  obtain ⟨-, -, -, -, -, -, -, -, -, -, -, -, -, -, e0, e1, -⟩ := idx_facts t
  funext a; apply Fin.ext
  match a with
  | ⟨0, _⟩ => show win0_7.index t (0 : Fin 2) * 1 + 1 * 0 = 0; omega
  | ⟨1, _⟩ => show win0_7.index t (1 : Fin 2) * 128 + 1 * q.val = win0_9.index t (1 : Fin 2) * 128 + q.val; omega

/-- The ninth window: the second bias. -/
theorem blk8 (c : Dev nD) (t : Fin cfg0.N) :
    iblk m c 8 t (ix2 (0 : Fin 1) (0 : Fin 1)) = m ((c : Thread nD τ).loc main_arg5) (ix1 (0 : Fin 1)) := by
  refine Eq.trans ?_ (V_v5 m c)
  show V m c main_v5 (((cfg0.win 8).blk t).view.emb (ix2 (0 : Fin 1) (0 : Fin 1))) = _
  congr 1
  obtain ⟨-, -, -, -, -, -, -, -, -, -, -, -, -, -, -, -, e0, e1, -⟩ := idx_facts t
  funext a; apply Fin.ext
  match a with
  | ⟨0, _⟩ => show win0_8.index t (0 : Fin 2) * 1 + 1 * 0 = 0; omega
  | ⟨1, _⟩ => show win0_8.index t (1 : Fin 2) * 1 + 1 * 0 = 0; omega

end Cert.KernelIdeal.Hand
end
-- ==== Proof.Alg.Chunks.lean ====
/-
  The logit of a pair, summed in four chunks of 128 hidden units.

  The specification's pre-activation of hidden unit h for the pair (row R, column C) is
      (Σ_d E[C,d]·W1[d,h] + Σ_d E[R,d]·W1[512+d,h]) + b1[h].
  Addition of extended reals is commutative and associative, so this is  BM h + A h  with
      BM h = Σ_d E[R,d]·W1[512+d,h]            (the row entry against the second half of the weight matrix),
      A h  = Σ_d E[C,d]·W1[d,h] + b1[h]        (the column entry against the first half, plus the bias).
  The logit's sum over the 512 hidden units is a sum over 128 + 128 + 128 + 128 indices, hence the sum of its four
  consecutive chunks of 128, added from the left: ((S 0 + S 1) + S 2) + S 3, chunk q running over the hidden units
  128·q + l, l < 128. Only the splitting of a finite sum at an index and the commutativity and associativity of
  addition are used, so nothing is asked of the values.
-/
import proofs.«181829_j51367808860812_2_alg».proof.Proof.Spec
import Mathlib.Algebra.BigOperators.Fin

noncomputable section

namespace Cert.Spec.Alg

open Cert.Spec

/-- A sum over 512 indices is the sum of its four consecutive chunks of 128, added from the left. -/
theorem sum_chunks {M : Type*} [AddCommMonoid M] (f : Fin 512 → M) :
    ∑ h : Fin 512, f h
      = (((∑ l : Fin 128, f ⟨l.val, by have := l.isLt; omega⟩)
            + ∑ l : Fin 128, f ⟨128 + l.val, by have := l.isLt; omega⟩)
          + ∑ l : Fin 128, f ⟨256 + l.val, by have := l.isLt; omega⟩)
        + ∑ l : Fin 128, f ⟨384 + l.val, by have := l.isLt; omega⟩ := by
  calc ∑ h : Fin 512, f h
      = ∑ k : Fin (128 + 128 + 128 + 128), f k := rfl
    _ = (∑ k : Fin (128 + 128 + 128), f (Fin.castAdd 128 k))
          + ∑ l : Fin 128, f (Fin.natAdd (128 + 128 + 128) l) :=
        Fin.sum_univ_add (a := 128 + 128 + 128) (b := 128) (fun k : Fin (128 + 128 + 128 + 128) => f k)
    _ = ((∑ k : Fin (128 + 128), f (Fin.castAdd 128 (Fin.castAdd 128 k)))
            + ∑ l : Fin 128, f (Fin.castAdd 128 (Fin.natAdd (128 + 128) l)))
          + ∑ l : Fin 128, f (Fin.natAdd (128 + 128 + 128) l) :=
        congrArg (· + ∑ l : Fin 128, f (Fin.natAdd (128 + 128 + 128) l))
          (Fin.sum_univ_add (a := 128 + 128) (b := 128) (fun k : Fin (128 + 128 + 128) => f (Fin.castAdd 128 k)))
    _ = (((∑ l : Fin 128, f (Fin.castAdd 128 (Fin.castAdd 128 (Fin.castAdd 128 l))))
              + ∑ l : Fin 128, f (Fin.castAdd 128 (Fin.castAdd 128 (Fin.natAdd 128 l))))
            + ∑ l : Fin 128, f (Fin.castAdd 128 (Fin.natAdd (128 + 128) l)))
          + ∑ l : Fin 128, f (Fin.natAdd (128 + 128 + 128) l) :=
        congrArg (fun z => (z + ∑ l : Fin 128, f (Fin.castAdd 128 (Fin.natAdd (128 + 128) l)))
            + ∑ l : Fin 128, f (Fin.natAdd (128 + 128 + 128) l))
          (Fin.sum_univ_add (a := 128) (b := 128) (fun k : Fin (128 + 128) => f (Fin.castAdd 128 (Fin.castAdd 128 k))))
    _ = _ := rfl

variable (E : Fin 256 → Fin 512 → EReal) (W1 : Fin 1024 → Fin 512 → EReal) (b1 : Fin 512 → EReal)
  (W2 : Fin 512 → EReal) (b2 : EReal) (R C : Fin 256)

/-- The row entry against the second half of the first weight matrix, at hidden unit h. -/
def BM (h : Fin 512) : EReal := ∑ d : Fin 512, E R d * W1 (Fin.natAdd 512 d : Fin (512 + 512)) h

/-- The column entry against the first half of the first weight matrix, plus the first bias, at hidden unit h. -/
def A (h : Fin 512) : EReal := (∑ d : Fin 512, E C d * W1 (Fin.castAdd 512 d : Fin (512 + 512)) h) + b1 h

/-- Chunk q of the logit's sum: the rectified pre-activations of the hidden units 128·q + l, l < 128, against the
    second layer's weights. -/
def S (q : Fin 4) : EReal :=
  ∑ l : Fin 128,
    max (BM E W1 R ⟨128 * q.val + l.val, by have := q.isLt; have := l.isLt; omega⟩
          + A E W1 b1 C ⟨128 * q.val + l.val, by have := q.isLt; have := l.isLt; omega⟩) zeroW
      * W2 ⟨128 * q.val + l.val, by have := q.isLt; have := l.isLt; omega⟩

/-- The pre-activation is the row part plus the column-and-bias part. -/
theorem hid_eq (h : Fin 512) : hid E W1 b1 R C h = BM E W1 R h + A E W1 b1 C h := by
  unfold hid BM A
  exact (congrArg (· + b1 h) (add_comm _ _)).trans (add_assoc _ _ _)

/-- Chunk 0 runs over the hidden units l. -/
theorem S_zero : S E W1 b1 W2 R C 0
    = ∑ l : Fin 128, max (BM E W1 R ⟨l.val, by have := l.isLt; omega⟩ + A E W1 b1 C ⟨l.val, by have := l.isLt; omega⟩) zeroW
        * W2 ⟨l.val, by have := l.isLt; omega⟩ := by
  unfold S
  refine Finset.sum_congr rfl fun l _ => ?_
  have e : (⟨128 * (0 : Fin 4).val + l.val, by have := l.isLt; simp; omega⟩ : Fin 512) = ⟨l.val, by have := l.isLt; omega⟩ :=
    Fin.ext (by simp)
  exact congrArg (fun h : Fin 512 => max (BM E W1 R h + A E W1 b1 C h) zeroW * W2 h) e

/-- Chunk 1 runs over the hidden units 128 + l. -/
theorem S_one : S E W1 b1 W2 R C 1
    = ∑ l : Fin 128, max (BM E W1 R ⟨128 + l.val, by have := l.isLt; omega⟩ + A E W1 b1 C ⟨128 + l.val, by have := l.isLt; omega⟩) zeroW
        * W2 ⟨128 + l.val, by have := l.isLt; omega⟩ := rfl

/-- Chunk 2 runs over the hidden units 256 + l. -/
theorem S_two : S E W1 b1 W2 R C 2
    = ∑ l : Fin 128, max (BM E W1 R ⟨256 + l.val, by have := l.isLt; omega⟩ + A E W1 b1 C ⟨256 + l.val, by have := l.isLt; omega⟩) zeroW
        * W2 ⟨256 + l.val, by have := l.isLt; omega⟩ := rfl

/-- Chunk 3 runs over the hidden units 384 + l. -/
theorem S_three : S E W1 b1 W2 R C 3
    = ∑ l : Fin 128, max (BM E W1 R ⟨384 + l.val, by have := l.isLt; omega⟩ + A E W1 b1 C ⟨384 + l.val, by have := l.isLt; omega⟩) zeroW
        * W2 ⟨384 + l.val, by have := l.isLt; omega⟩ := rfl

/-- The specification's logit is the four chunks added from the left, plus the second bias. -/
theorem logit_chunks :
    logit E W1 b1 W2 b2 R C
      = (((S E W1 b1 W2 R C 0 + S E W1 b1 W2 R C 1) + S E W1 b1 W2 R C 2) + S E W1 b1 W2 R C 3) + b2 := by
  unfold logit
  refine congrArg (· + b2) ?_
  simp only [hid_eq]
  rw [sum_chunks (fun h : Fin 512 => max (BM E W1 R h + A E W1 b1 C h) zeroW * W2 h), S_zero, S_one, S_two, S_three]

end Cert.Spec.Alg

end
-- ==== Proof.KI.Value.lean ====
/-
  The idealized kernel's result is `Cert.Spec.G` of the six argument arrays.

  At grid point `t` the output block's entry (r, q) is the loss of the pair (row 128·i + r, column 128·j + q), where
  (i, j) is the block's index: the row projection of the block's rows against the second half of the first-layer weights
  is the specification's `BM`, the column projection of the block's columns against the first half plus the bias is its
  `A`, and the four lane chunks added left to right are its logit (the specification's sum over all 512 hidden units,
  split in four). The four blocks tile the 256 × 256 output array, so after the run it holds the loss of every pair; the
  last reshape lays it out flat, entry 256·R + C the pair (R, C).
-/
import proofs.«181829_j51367808860812_2_alg».proof.Proof.KI.Out
import proofs.«181829_j51367808860812_2_alg».proof.Proof.KI.Inputs
import proofs.«181829_j51367808860812_2_alg».proof.Proof.Alg.Chunks
import proofs.«181829_j51367808860812_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open Cert.KernelIdeal.Pay Cert.Spec Cert.Spec.Alg

variable (m : (ℓ : Loc nD τ sig) → Buf (Elt Ideal) ℓ) (ρ : Dev nD → PrngReg)

/-- The six argument arrays, as the specification takes them. -/
abbrev E_ (c : Dev nD) : Fin 256 → Fin 512 → EReal := fun r d => m ((c : Thread nD τ).loc main_arg0) (ix2 r d)
abbrev lab_ (c : Dev nD) : Fin 256 → BitVec 32 := fun r => m ((c : Thread nD τ).loc main_arg1) (ix1 r)
abbrev W1_ (c : Dev nD) : Fin 1024 → Fin 512 → EReal := fun k h => m ((c : Thread nD τ).loc main_arg2) (ix2 k h)
abbrev b1_ (c : Dev nD) : Fin 512 → EReal := fun h => m ((c : Thread nD τ).loc main_arg3) (ix1 h)
abbrev W2_ (c : Dev nD) : Fin 512 → EReal := fun h => m ((c : Thread nD τ).loc main_arg4) (ix2 h (0 : Fin 1))
abbrev b2_ (c : Dev nD) : EReal := m ((c : Thread nD τ).loc main_arg5) (ix1 (0 : Fin 1))

/-- The output block at point `t`, entry (r, q): the loss of the pair (block row's array row, block column's array column). -/
theorem outsAt_at (c : Dev nD) (t : Fin cfg0.N) (r q : Fin 128) :
    outsAt (F := Ideal) m c t (ix2 r q) = Cert.Spec.loss (E_ m c) (lab_ m c) (W1_ m c) (b1_ m c) (W2_ m c) (b2_ m c) (rowOf t r) (colOf t q) := by
  unfold outsAt
  rw [outBlk_at]
  unfold lossBlk Cert.Spec.loss Cert.Spec.prob Cert.Spec.tgt
  rw [logit_chunks, S_zero, S_one, S_two, S_three, blk8, blk6, blk7]
  unfold accF ch0 ch1 ch2 ch3 BM A
  simp only [pay4, pay3, blk0, blk1, blk2, blk3, blk4, blk5]

/-- The loss of every pair, as a 256 × 256 array. -/
def G2 (c : Dev nD) : S256x256.Idx → EReal := fun y => Cert.Spec.loss (E_ m c) (lab_ m c) (W1_ m c) (b1_ m c) (W2_ m c) (b2_ m c) (y 0) (y 1)

/-- What point `t` writes back is block `t` of that array. -/
theorem flushed_eq (c : Dev nD) (t : Fin cfg0.N) :
    (dats m 0 c).flushed 9 t = ((cfg0.win 9).blk t).view.read (Elt Ideal) (G2 m c) := by
  show (cfg0.win 9).cut (grid0.coords t) ((dats m 0 c).after 9 t) = _
  rw [after_9]
  funext j
  obtain ⟨r, q, rfl⟩ : ∃ (r q : Fin 128), j = ix2 r q := ⟨j 0, j 1, eq_ix2 j⟩
  show outsAt (F := Ideal) m c t (ix2 r q) = G2 m c (((cfg0.win 9).blk t).view.emb (ix2 r q))
  rw [outsAt_at]
  unfold G2
  have h0 : ((cfg0.win 9).blk t).view.emb (ix2 r q) 0 = rowOf t r := by
    apply Fin.ext
    show win0_9.index t (0 : Fin 2) * 128 + 1 * r.val = win0_9.index t (0 : Fin 2) * 128 + r.val
    omega
  have h1 : ((cfg0.win 9).blk t).view.emb (ix2 r q) 1 = colOf t q := by
    apply Fin.ext
    show win0_9.index t (1 : Fin 2) * 128 + 1 * q.val = win0_9.index t (1 : Fin 2) * 128 + q.val
    omega
  rw [h0, h1]

/-- An index of the output array is in point `t`'s block iff each coordinate is in the block's range. -/
theorem mem_blk9 (t : Fin cfg0.N) (y : S256x256.Idx) :
    y ∈ ((cfg0.win 9).blk t).view.set ↔ ∀ a : Fin 2, win0_9.index t a * S128x128.size a ≤ (y a).val ∧ (y a).val < win0_9.index t a * S128x128.size a + S128x128.size a := by
  show y ∈ ((View.whole main_v8).slice (win0_9.rect t)).set ↔ _
  rw [View.set_slice_whole, Rect.mem_set_unit]
  exact Iff.rfl

/-- Every index of the output array is in the block of some point that writes back. -/
theorem cover9 (y : S256x256.Idx) : ∃ t : Fin cfg0.N, (cfg0.win 9).flush t = true ∧ y ∈ ((cfg0.win 9).blk t).view.set := by
  have hy0 : (y 0).val < 256 := (y 0).isLt
  have hy1 : (y 1).val < 256 := (y 1).isLt
  obtain ⟨t, ht⟩ := idx_onto ⟨(y 0).val / 128, by omega⟩ ⟨(y 1).val / 128, by omega⟩
  have q0 : win0_9.index t (0 : Fin 2) = (y 0).val / 128 := congrFun ht 0
  have q1 : win0_9.index t (1 : Fin 2) = (y 1).val / 128 := congrFun ht 1
  refine ⟨t, flush0_9 t, ?_⟩
  rw [mem_blk9]
  intro a
  match a with
  | ⟨0, _⟩ => show win0_9.index t (0 : Fin 2) * 128 ≤ (y 0).val ∧ (y 0).val < win0_9.index t (0 : Fin 2) * 128 + 128; omega
  | ⟨1, _⟩ => show win0_9.index t (1 : Fin 2) * 128 ≤ (y 1).val ∧ (y 1).val < win0_9.index t (1 : Fin 2) * 128 + 128; omega

/-- The output array after the run holds the loss of every pair. -/
theorem final9 (c : Dev nD) : (dats m 0 c).arrAt 9 cfg0.N = G2 m c :=
  (dats m 0 c).arrAt_eq_of_cover 9 (G2 m c) (fun t _ => flushed_eq m c t) (cover9)

/-- The result array: the output array laid out flat. -/
theorem res_eq (c : Dev nD) :
    res (F := Ideal) m c = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e : (res (F := Ideal) m c : S65536.Idx → EReal) = shapeCast S65536 ((dats m 0 c).arrAt 9 cfg0.N) shapeCasts_S256x256_S65536 := by
    show StableHlo.after hostOps1 (V₂ m c) (Proc.devRef .tc main_v9) = _
    after_results
    rfl
  rw [e, final9]
  funext i
  have hi : (i 0).val < 65536 := (i 0).isLt
  refine (shapeCast_apply (s := S256x256) (t := S65536) (G2 m c) _ i (ix2 (⟨(i 0).val / 256, by omega⟩ : Fin 256) (⟨(i 0).val % 256, Nat.mod_lt _ (by norm_num)⟩ : Fin 256)) ?_).trans ?_
  · show ((S256x256 : Shape).rowMajor (ix2 (⟨(i 0).val / 256, by omega⟩ : Fin 256) (⟨(i 0).val % 256, Nat.mod_lt _ (by norm_num)⟩ : Fin 256))).val = ((S65536 : Shape).rowMajor i).val
    rw [Shape.rowMajor_val_two, Shape.rowMajor_val_one]
    show (i 0).val / 256 * 256 + (i 0).val % 256 = (i 0).val
    omega
  · rfl

/-- The run, read: the result array is the specification's function of the arguments, which end unchanged. -/
theorem run : θ_run defs (onTc (τ := τ) (main (F := Ideal))) ⟨m, fun _ => 0, ρ⟩ (fun r => ∀ c : Dev nD,
      r.2.mem ((c : Thread nD τ).loc main_v9) = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => ⟨((h c).1).trans (res_eq m c), (h c).2⟩) (run_main (F := Ideal) m ρ)

end Cert.KernelIdeal.Hand
end
-- ==== Proof.Ref.Concat.lean ====
/-
  The joined row of a pair of batch entries, read one coordinate at a time.

  For the pair (row R, column C) the reference lays the embedding of the COLUMN entry (the array broadcast along
  the leading axis) in front of the embedding of the ROW entry (the array broadcast along the middle axis) and
  joins them on the last axis into a row of length 1024 = 512 + 512. So the joined row at a coordinate
  d < 512 of its first half is E[C, d], and at the coordinate 512 + d of its second half is E[R, d].
-/
import proofs.«181829_j51367808860812_2_alg».proof.Proof.Gen.ReferenceIdeal.Read
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-- The array broadcast along the leading axis holds, at (R, C, d), the column entry's coordinate d. -/
theorem v1_at (x0 : (⟨S256x512, .f32⟩ : BufTy).Contents (Elt F)) (R C : Fin 256) (d : Fin 512) :
    val_main_v1 (F := F) x0 (ix3 R C d) = x0 (ix2 C d) := by
  rw [val_main_v1_apply, val_main_v0_apply]
  exact congrArg x0 (funext fun a => by match a with | ⟨0, _⟩ => rfl | ⟨1, _⟩ => rfl)

/-- The array broadcast along the middle axis holds, at (R, C, d), the row entry's coordinate d. -/
theorem v3_at (x0 : (⟨S256x512, .f32⟩ : BufTy).Contents (Elt F)) (R C : Fin 256) (d : Fin 512) :
    val_main_v3 (F := F) x0 (ix3 R C d) = x0 (ix2 R d) := by
  rw [val_main_v3_apply, val_main_v2_apply]
  exact congrArg x0 (funext fun a => by match a with | ⟨0, _⟩ => rfl | ⟨1, _⟩ => rfl)

/-- The joined row's first half is the column entry's embedding. -/
theorem v4_left (x0 : (⟨S256x512, .f32⟩ : BufTy).Contents (Elt F)) (R C : Fin 256) (d : Fin 512) :
    val_main_v4 (F := F) x0 (ix3 R C (Fin.castAdd 512 d : Fin (512 + 512))) = x0 (ix2 C d) := by
  unfold val_main_v4
  rw [concatenate_pair_apply_left (2 : Fin S256x256x1024.rank) (val_main_v1 (F := F) x0) (val_main_v3 (F := F) x0)
    concatenates_S256x256x512_S256x256x512_S256x256x1024_d2 _ rfl (ix3 R C d)
    (fun b => by match b with | ⟨0, _⟩ => rfl | ⟨1, _⟩ => rfl | ⟨2, _⟩ => rfl)]
  exact v1_at x0 R C d

/-- The joined row's second half is the row entry's embedding. -/
theorem v4_right (x0 : (⟨S256x512, .f32⟩ : BufTy).Contents (Elt F)) (R C : Fin 256) (d : Fin 512) :
    val_main_v4 (F := F) x0 (ix3 R C (Fin.natAdd 512 d : Fin (512 + 512))) = x0 (ix2 R d) := by
  unfold val_main_v4
  rw [concatenate_pair_apply_right (2 : Fin S256x256x1024.rank) (val_main_v1 (F := F) x0) (val_main_v3 (F := F) x0)
    concatenates_S256x256x512_S256x256x512_S256x256x1024_d2 _ rfl rfl (ix3 R C d)
    (fun b hb => by match b with | ⟨0, _⟩ => rfl | ⟨1, _⟩ => rfl | ⟨2, _⟩ => exact absurd rfl hb)
    (by show d.val + 512 = 512 + d.val; omega)]
  exact v3_at x0 R C d

end Cert.ReferenceIdeal.RefValue

end
-- ==== Proof.Ref.DotSplit.lean ====
/-
  The first layer's product for a pair, as two sums of length 512.

  The reference contracts the pair's joined row (length 1024) against the first weight matrix. At the ideal
  instance that is the sum over all 1024 coordinates of (joined row)·(weight); a sum over 512 + 512 indices is
  the sum over the first 512 plus the sum over the last 512, and on each half the joined row is one entry's
  embedding. So the product at hidden unit h, for the pair (row R, column C), is
      Σ_{d<512} E[C,d]·W1[d,h]  +  Σ_{d<512} E[R,d]·W1[512+d,h].
  No law beyond splitting a finite sum at an index is used, so nothing is asked of the values.
-/
import proofs.«181829_j51367808860812_2_alg».proof.Proof.Gen.ReferenceIdeal.Read
import proofs.«181829_j51367808860812_2_alg».proof.Proof.Ref.Concat
import Mathlib.Algebra.BigOperators.Fin

noncomputable section

namespace Cert.ReferenceIdeal.RefValue

open Cert.ReferenceIdeal Cert.ReferenceIdeal.Gen Cert.ReferenceIdeal.Read Idealize.ShloMosaic Idealize.ShloMosaic.ValueIdx

/-- The left operand's index of the first contraction at (R, C, h) and contracted coordinate k is (R, C, k). -/
theorem lidx_v5_at (R C : Fin 256) (h : Fin 512) (k : Fin 1024) : lidx_main_v5 (ix3 R C h) k = ix3 R C k :=
  funext fun a => by match a with | ⟨0, _⟩ => rfl | ⟨1, _⟩ => rfl | ⟨2, _⟩ => rfl

/-- The right operand's index of the first contraction at (R, C, h) and contracted coordinate k is (k, h). -/
theorem ridx_v5_at (R C : Fin 256) (h : Fin 512) (k : Fin 1024) : ridx_main_v5 (ix3 R C h) k = ix2 k h :=
  funext fun a => by match a with | ⟨0, _⟩ => rfl | ⟨1, _⟩ => rfl

/-- The first layer's product at (R, C, h): the column entry against the weight matrix's first 512 rows plus the
    row entry against its last 512 rows. -/
theorem v5_at (x0 : (⟨S256x512, .f32⟩ : BufTy).Contents (Elt Ideal)) (x2 : (⟨S1024x512, .f32⟩ : BufTy).Contents (Elt Ideal))
    (R C : Fin 256) (h : Fin 512) :
    val_main_v5 (F := Ideal) x0 x2 (ix3 R C h)
      = (∑ d : Fin 512, x0 (ix2 C d) * x2 (ix2 (Fin.castAdd 512 d : Fin (512 + 512)) h))
        + ∑ d : Fin 512, x0 (ix2 R d) * x2 (ix2 (Fin.natAdd 512 d : Fin (512 + 512)) h) := by
  rw [val_main_v5_apply]
  simp only [lidx_v5_at, ridx_v5_at]
  refine (Fin.sum_univ_add (a := 512) (b := 512)
    (fun k : Fin (512 + 512) => val_main_v4 (F := Ideal) x0 (ix3 R C k) * x2 (ix2 k h))).trans ?_
  simp only [v4_left, v4_right]

end Cert.ReferenceIdeal.RefValue

end
-- ==== Proof.Ref.Hidden.lean ====
/-
  The hidden layer of a pair: the reference's pre-activation and its rectification are the specification's.

  For the pair (row R, column C) the reference adds the first bias, broadcast over all pairs, to the first
  layer's product, and takes the maximum with the zero word broadcast over all pairs. With the product
  already split into its two halves, the pre-activation at hidden unit h is the specification's
      hid R C h = Σ_d E[C,d]·W1[d,h] + Σ_d E[R,d]·W1[512+d,h] + b1[h],
  and the rectified value is max (hid R C h) (the word of 0).
-/
import proofs.«181829_j51367808860812_2_alg».proof.Proof.Gen.ReferenceIdeal.Read
import proofs.«181829_j51367808860812_2_alg».proof.Proof.Spec
import proofs.«181829_j51367808860812_2_alg».proof.Proof.Ref.DotSplit

noncomputable section

namespace Cert.ReferenceIdeal.RefValue

open Cert.ReferenceIdeal Cert.ReferenceIdeal.Gen Cert.ReferenceIdeal.Read Idealize.ShloMosaic Idealize.ShloMosaic.ValueIdx

variable (x0 : (⟨S256x512, .f32⟩ : BufTy).Contents (Elt Ideal)) (x2 : (⟨S1024x512, .f32⟩ : BufTy).Contents (Elt Ideal))
  (x3 : (⟨S512, .f32⟩ : BufTy).Contents (Elt Ideal))

/-- The first bias broadcast over all pairs holds b1[h] at (R, C, h). -/
theorem v7_at (R C : Fin 256) (h : Fin 512) : val_main_v7 (F := Ideal) x3 (ix3 R C h) = x3 (ix1 h) := by
  rw [val_main_v7_apply, val_main_v6_apply]
  exact congrArg x3 (funext fun a => by match a with | ⟨0, _⟩ => rfl)

/-- The reference's pre-activation at (R, C, h) is the specification's. -/
theorem v8_at (R C : Fin 256) (h : Fin 512) :
    val_main_v8 (F := Ideal) x0 x2 x3 (ix3 R C h)
      = Cert.Spec.hid (fun r d => x0 (ix2 r d)) (fun k h => x2 (ix2 k h)) (fun h => x3 (ix1 h)) R C h := by
  rw [val_main_v8_apply, v5_at, v7_at]
  rfl

/-- The reference's rectified hidden value at (R, C, h): the maximum of the pre-activation and the zero word. -/
theorem v9_at (R C : Fin 256) (h : Fin 512) :
    val_main_v9 (F := Ideal) x0 x2 x3 (ix3 R C h)
      = max (Cert.Spec.hid (fun r d => x0 (ix2 r d)) (fun k h => x2 (ix2 k h)) (fun h => x3 (ix1 h)) R C h) Cert.Spec.zeroW := by
  rw [val_main_v9_apply, v8_at, val_main_call0_v0_apply, val_main_call0_cst_apply]
  rfl

end Cert.ReferenceIdeal.RefValue

end
-- ==== Proof.Ref.Logit.lean ====
/-
  The second layer of a pair: logit and clipped probability.

  The reference contracts the rectified hidden row (length 512) against the second weight column, adds the second
  bias broadcast over all pairs, and applies the logistic function in its expanded form 1 / (1 + exp (-x)), the
  two ones being the word of 1.0, which denotes the extended real 1. The result, a column of extent one, is
  re-read as a 256 x 256 array (the row-major position 256·R + C of (R, C) has quotient R and remainder C), and is
  clipped: the maximum with the lower bound's word first, then the minimum with the upper bound's word. That is the
  specification's logit and prob.
-/
import proofs.«181829_j51367808860812_2_alg».proof.Proof.Gen.ReferenceIdeal.Read
import proofs.«181829_j51367808860812_2_alg».proof.Proof.Spec
import proofs.«181829_j51367808860812_2_alg».proof.Proof.Ref.Hidden
import Idealize.ShloMosaic.PureOps.IdealRules

noncomputable section

namespace Cert.ReferenceIdeal.RefValue

open Cert.ReferenceIdeal Cert.ReferenceIdeal.Gen Cert.ReferenceIdeal.Read Idealize.ShloMosaic Idealize.ShloMosaic.ValueIdx

variable (x0 : (⟨S256x512, .f32⟩ : BufTy).Contents (Elt Ideal)) (x2 : (⟨S1024x512, .f32⟩ : BufTy).Contents (Elt Ideal))
  (x3 : (⟨S512, .f32⟩ : BufTy).Contents (Elt Ideal)) (x4 : (⟨S512x1, .f32⟩ : BufTy).Contents (Elt Ideal))
  (x5 : (⟨S1, .f32⟩ : BufTy).Contents (Elt Ideal))

/-- The word of 1.0 denotes the extended real 1. -/
theorem ofBits_one_f32 : Ideal.ofBits .f32 0x3F800000#32 = 1 := IdealRules.sign_bit.ideal_onePat .f32

/-- The left operand's index of the second contraction at (R, C, 0) and contracted coordinate k is (R, C, k). -/
theorem lidx_v10_at (R C : Fin 256) (k : Fin 512) : lidx_main_v10 (ix3 R C (0 : Fin 1)) k = ix3 R C k :=
  funext fun a => by match a with | ⟨0, _⟩ => rfl | ⟨1, _⟩ => rfl | ⟨2, _⟩ => rfl

/-- The right operand's index of the second contraction at (R, C, 0) and contracted coordinate k is (k, 0). -/
theorem ridx_v10_at (R C : Fin 256) (k : Fin 512) : ridx_main_v10 (ix3 R C (0 : Fin 1)) k = ix2 k (0 : Fin 1) :=
  funext fun a => by match a with | ⟨0, _⟩ => rfl | ⟨1, _⟩ => rfl

/-- The second bias broadcast over all pairs holds b2 at (R, C, 0). -/
theorem v12_at (R C : Fin 256) : val_main_v12 (F := Ideal) x5 (ix3 R C (0 : Fin 1)) = x5 (ix1 (0 : Fin 1)) := by
  rw [val_main_v12_apply, val_main_v11_apply]
  exact congrArg x5 (funext fun a => by match a with | ⟨0, _⟩ => rfl)

/-- The reference's logit at (R, C, 0) is the specification's. -/
theorem v13_at (R C : Fin 256) :
    val_main_v13 (F := Ideal) x0 x2 x3 x4 x5 (ix3 R C (0 : Fin 1))
      = Cert.Spec.logit (fun r d => x0 (ix2 r d)) (fun k h => x2 (ix2 k h)) (fun h => x3 (ix1 h))
          (fun h => x4 (ix2 h (0 : Fin 1))) (x5 (ix1 (0 : Fin 1))) R C := by
  rw [val_main_v13_apply, val_main_v10_apply, v12_at]
  simp only [lidx_v10_at, ridx_v10_at, v9_at]
  rfl

/-- The reference's expanded logistic of the logit at (R, C, 0) is the logistic function of the specification's logit. -/
theorem v19_at (R C : Fin 256) :
    val_main_v19 (F := Ideal) x0 x2 x3 x4 x5 (ix3 R C (0 : Fin 1))
      = Ideal.logistic (Cert.Spec.logit (fun r d => x0 (ix2 r d)) (fun k h => x2 (ix2 k h)) (fun h => x3 (ix1 h))
          (fun h => x4 (ix2 h (0 : Fin 1))) (x5 (ix1 (0 : Fin 1))) R C) := by
  rw [val_main_v19_apply, val_main_v18_apply, val_main_cst_0_apply, val_main_v17_apply, val_main_v16_apply,
    val_main_cst_apply, val_main_v15_apply, val_main_v14_apply, v13_at, Ideal.ofBits_def, ofBits_one_f32]
  rfl

/-- The 256 x 256 re-reading of the column at (R, C) is its entry (R, C, 0). -/
theorem idx_v20_at (R C : Fin 256) : idx_main_v20 (ix2 R C) = ix3 R C (0 : Fin 1) :=
  funext fun a => by
    match a with
    | ⟨0, _⟩ => exact Fin.ext (by show (R.val * 256 + C.val) / 256 = R.val; have := R.isLt; have := C.isLt; omega)
    | ⟨1, _⟩ => exact Fin.ext (by show (R.val * 256 + C.val) / 1 % 256 = C.val; have := R.isLt; have := C.isLt; omega)
    | ⟨2, _⟩ => rfl

/-- The reference's clipped probability at (R, C) is the specification's. -/
theorem v21_at (R C : Fin 256) :
    val_main_v21 (F := Ideal) x0 x2 x3 x4 x5 (ix2 R C)
      = Cert.Spec.prob (fun r d => x0 (ix2 r d)) (fun k h => x2 (ix2 k h)) (fun h => x3 (ix1 h))
          (fun h => x4 (ix2 h (0 : Fin 1))) (x5 (ix1 (0 : Fin 1))) R C := by
  rw [val_main_v21_apply, val_main_call1_v4_apply, val_main_call1_v3_apply, val_main_cst_2_apply,
    val_main_call1_v2_apply, val_main_call1_v1_apply, val_main_call1_v0_apply, val_main_cst_1_apply,
    val_main_v20_apply, idx_v20_at, v19_at]
  rfl

end Cert.ReferenceIdeal.RefValue

end
-- ==== Proof.Ref.Target.lean ====
/-
  The target of a pair: do the two labels agree.

  The reference broadcasts the label vector down the columns and along the rows, compares the two 256 x 256 integer
  arrays for equality and converts the resulting bit to a float: at (R, C) that is the bit of
  "label R = label C" read as the number 1 or 0, the specification's tgt.
-/
import proofs.«181829_j51367808860812_2_alg».proof.Proof.Gen.ReferenceIdeal.Read
import proofs.«181829_j51367808860812_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable (x1 : (⟨S256, .i32⟩ : BufTy).Contents (Elt Ideal))

/-- The labels broadcast down the columns hold label R at (R, C). -/
theorem v24_at (R C : Fin 256) : val_main_v24 (F := Ideal) x1 (ix2 R C) = x1 (ix1 R) := by
  rw [val_main_v24_apply, val_main_v22_apply]
  exact congrArg x1 (funext fun a => by match a with | ⟨0, _⟩ => rfl)

/-- The labels broadcast along the rows hold label C at (R, C). -/
theorem v25_at (R C : Fin 256) : val_main_v25 (F := Ideal) x1 (ix2 R C) = x1 (ix1 C) := by
  rw [val_main_v25_apply, val_main_v23_apply]
  exact congrArg x1 (funext fun a => by match a with | ⟨0, _⟩ => rfl)

/-- The equality bit of two words, read as an unsigned number at the ideal instance, is 1 when they agree and 0 otherwise. -/
theorem uitofp_cmpi_eq (a b : BitVec 32) :
    (FloatOps.uitofp (F := Ideal) .f32 (IntOp.cmpi .eq a b) : EReal) = if a = b then 1 else 0 := by
  show (((IntOp.cmpi .eq a b).toNat : ℝ) : EReal) = _
  unfold IntOp.cmpi
  by_cases h : a = b
  · simp [h]
  · simp [h]

/-- The reference's target at (R, C) is the specification's. -/
theorem v27_at (R C : Fin 256) :
    val_main_v27 (F := Ideal) x1 (ix2 R C) = Cert.Spec.tgt (fun r => x1 (ix1 r)) R C := by
  rw [val_main_v27_apply, val_main_v26_apply, v24_at, v25_at, uitofp_cmpi_eq]
  rfl

end Cert.ReferenceIdeal.RefValue

end
-- ==== Proof.Ref.RefSpec.lean ====
/-
  The reference computes the specification: its result array is G of the six argument arrays.

  At (R, C) the reference's loss is  −( t·log p + (1 − t)·log(1 + (−p)) )  with p the clipped probability and t the
  target of the pair, the 1 being the word of 1.0 kept as a word; the flat result at index i is the 256 x 256 loss
  array at (i / 256, i % 256). With the probability and the target already identified with the specification's,
  what is left is to read the elementwise operations at the index. The frame claim of the reference is the
  generated run's, its value part dropped.
-/
import proofs.«181829_j51367808860812_2_alg».proof.Defs
import proofs.«181829_j51367808860812_2_alg».proof.Proof.Gen.ReferenceIdeal.Run
import proofs.«181829_j51367808860812_2_alg».proof.Proof.Gen.Pre_finite_inputs
import proofs.«181829_j51367808860812_2_alg».proof.Proof.Gen.ReferenceIdeal.Read
import proofs.«181829_j51367808860812_2_alg».proof.Proof.Spec
import proofs.«181829_j51367808860812_2_alg».proof.Proof.Ref.Logit
import proofs.«181829_j51367808860812_2_alg».proof.Proof.Ref.Target

noncomputable section

namespace Cert.ReferenceIdeal.RefValue

open Cert.ReferenceIdeal Cert.ReferenceIdeal.Gen Cert.ReferenceIdeal.Read Idealize.ShloMosaic Idealize.ShloMosaic.ValueIdx

open Idealize.ShloMosaic.TcCoe Idealize.SL.Sem

variable (x0 : (⟨S256x512, .f32⟩ : BufTy).Contents (Elt Ideal)) (x1 : (⟨S256, .i32⟩ : BufTy).Contents (Elt Ideal))
  (x2 : (⟨S1024x512, .f32⟩ : BufTy).Contents (Elt Ideal))
  (x3 : (⟨S512, .f32⟩ : BufTy).Contents (Elt Ideal)) (x4 : (⟨S512x1, .f32⟩ : BufTy).Contents (Elt Ideal))
  (x5 : (⟨S1, .f32⟩ : BufTy).Contents (Elt Ideal))

/-- The reference's loss at (R, C) is the specification's. -/
theorem v36_at (R C : Fin 256) :
    val_main_v36 (F := Ideal) x0 x1 x2 x3 x4 x5 (ix2 R C)
      = Cert.Spec.loss (fun r d => x0 (ix2 r d)) (fun r => x1 (ix1 r)) (fun k h => x2 (ix2 k h)) (fun h => x3 (ix1 h))
          (fun h => x4 (ix2 h (0 : Fin 1))) (x5 (ix1 (0 : Fin 1))) R C := by
  rw [val_main_v36_apply, val_main_v35_apply, val_main_v29_apply, val_main_v28_apply, val_main_v34_apply,
    val_main_v31_apply, val_main_v30_apply, val_main_cst_3_apply, val_main_v33_apply, val_main_v32_apply,
    v21_at, v27_at]
  rfl

/-- The reference's result array, as the generated stage of the six argument arrays, is the specification's G. -/
theorem val_eq_G : val_main_v37 (F := Ideal) x0 x1 x2 x3 x4 x5 = Cert.Spec.G x0 x1 x2 x3 x4 x5 := by
  funext i
  rw [val_main_v37_apply]
  have e : idx_main_v37 i
      = ix2 (⟨(i 0).val / 256, by have := (i 0).isLt; simp only [Matrix.cons_val_zero] at this; omega⟩ : Fin 256)
          (⟨(i 0).val % 256, Nat.mod_lt _ (by norm_num)⟩ : Fin 256) :=
    funext fun a => by match a with | ⟨0, _⟩ => rfl | ⟨1, _⟩ => rfl
  rw [e, v36_at]
  rfl

/-- The term the generated run leaves in the reference's result buffer is G of the arguments' launch contents. -/
theorem ref_eq_G (m : (ℓ : Loc nD τ sig) → Buf (Elt Ideal) ℓ) (c : Dev nD) :
    Cert.ReferenceIdeal.Value.res_main_v37 (F := Ideal) m c
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v37_eq (F := Ideal) m c).trans (val_eq_G _ _ _ _ _ _)

/-- The reference runs and leaves its arguments unchanged: the generated run with its value part dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate: the all-pairs siamese cross-entropy kernel against its jnp reference.

  Both programs compute, for every ordered pair (R, C) of the 256 batch entries, the binary cross-entropy of the clipped
  logistic of  Σ_h max(E[C]·W1[:512,h] + E[R]·W1[512:,h] + b1[h], 0)·W2[h] + b2  against the equality of the two labels
  (`Cert.Spec.G`, Proof/Spec.lean). The reference materialises the concatenated pair and contracts over all 1024 inputs;
  the kernel splits the contraction at 512 into a row projection and a column projection per 128 × 128 output tile, adds
  them lane chunk by lane chunk, and accumulates the rectified products eight rows at a time. On the extended reals the
  two are the same function: only associativity and commutativity of addition separate them, so the precondition is not
  used.
  The frames of the two kernel programs are in Proof/K and Proof/KI: the body's run through its row-block loop, then the
  launch as the host operations, the region and the final reshape, the embeddings array read by two windows that hold half
  of its share each. The reference's run and its reading operation by operation are the generated modules; that it is the
  specification is Proof/Ref. `preserves` has no conjunct: the idealization rewrote nothing.
-/
import proofs.«181829_j51367808860812_2_alg».proof.Defs
import proofs.«181829_j51367808860812_2_alg».proof.Proof.Gen.Kernel
import proofs.«181829_j51367808860812_2_alg».proof.Proof.Gen.KernelIdeal
import proofs.«181829_j51367808860812_2_alg».proof.Proof.Gen.ReferenceIdeal
import proofs.«181829_j51367808860812_2_alg».proof.Proof.Gen.Pre_finite_inputs
import proofs.«181829_j51367808860812_2_alg».proof.Proof.Gen.ReferenceIdeal.Run
import proofs.«181829_j51367808860812_2_alg».proof.Proof.Gen.ReferenceIdeal.Read
import proofs.«181829_j51367808860812_2_alg».proof.Proof.K.Run
import proofs.«181829_j51367808860812_2_alg».proof.Proof.KI.Value
import proofs.«181829_j51367808860812_2_alg».proof.Proof.Ref.RefSpec
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its six arguments as they were. -/
theorem frame_k : Cert.frame_Kernel := fun m ρ _ =>
  (θ_run Cert.Kernel.defs _ _).mono (fun _ h c => (h c).2) (Cert.Kernel.Hand.run_main (F := Bits) m ρ)

/-- So does its idealization. -/
theorem frame_ki : Cert.frame_KernelIdeal := fun m ρ _ =>
  (θ_run Cert.KernelIdeal.defs _ _).mono (fun _ h c => (h c).2) (Cert.KernelIdeal.Hand.run_main (F := Ideal) m ρ)

/-- At the ideal instance the kernel's result array and the reference's, from memories that agree on the arguments, are
    the specification's one function of those arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.RefValue.ref_eq_G m' c, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
